-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S3200000 : Shape := ⟨1, ![3200000]⟩
abbrev S32x64 : Shape := ⟨2, ![32, 64]⟩
abbrev S64 : Shape := ⟨1, ![64]⟩
abbrev S64x64 : Shape := ⟨2, ![64, 64]⟩
abbrev S2x3200000 : Shape := ⟨2, ![2, 3200000]⟩
abbrev S2x1000000 : Shape := ⟨2, ![2, 1000000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x32 .f32) (main_arg1 : FVec F S3200000 .f32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : IVec S2x3200000 32) (main_arg13 : IVec S2x1000000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x32 : Shape := ⟨2, ![100000, 32]⟩
abbrev S3200000 : Shape := ⟨1, ![3200000]⟩
abbrev S32x64 : Shape := ⟨2, ![32, 64]⟩
abbrev S64 : Shape := ⟨1, ![64]⟩
abbrev S64x64 : Shape := ⟨2, ![64, 64]⟩
abbrev S2x3200000 : Shape := ⟨2, ![2, 3200000]⟩
abbrev S2x1000000 : Shape := ⟨2, ![2, 1000000]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x32 : Shape := ⟨2, ![10000, 32]⟩
abbrev S10000x64 : Shape := ⟨2, ![10000, 64]⟩
abbrev S3300000x64 : Shape := ⟨2, ![3300000, 64]⟩
abbrev S1x64 : Shape := ⟨2, ![1, 64]⟩
abbrev S1x1000000 : Shape := ⟨2, ![1, 1000000]⟩
abbrev S1000000 : Shape := ⟨1, ![1000000]⟩
abbrev S1007616 : Shape := ⟨1, ![1007616]⟩
abbrev S1007616x1 : Shape := ⟨2, ![1007616, 1]⟩
abbrev S1007616x64 : Shape := ⟨2, ![1007616, 64]⟩
abbrev S8192x64 : Shape := ⟨2, ![8192, 64]⟩
abbrev S8192 : Shape := ⟨1, ![8192]⟩

abbrev nBuf : Space → Nat
  | .hbm => 205
  | .vmem => 31
  | .smem => 0
  | _ => 0

abbrev hbmTy0_0 (i : Nat) : BufTy := match i % 128 with
  | 0 => ⟨S100000x32, .f32⟩
  | 1 => ⟨S3200000, .f32⟩
  | 2 => ⟨S32x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S2x3200000, .i32⟩
  | 13 => ⟨S2x1000000, .i32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S100000, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000, .f32⟩
  | 62 => ⟨S3300000, .f32⟩
  | 63 => ⟨S100000x64, .f32⟩
  | 64 => ⟨S3300000x1, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x64, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S3300000x1, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x64, .f32⟩
  | 97 => ⟨S3300000x64, .f32⟩
  | 98 => ⟨S3300000x64, .f32⟩
  | 99 => ⟨S_, .f32⟩
  | 100 => ⟨S100000x64, .f32⟩
  | 101 => ⟨S3300000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S3300000x1, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x64, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x32, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S3300000x1, .f32⟩
  | 6 => ⟨S_, .i32⟩
  | 7 => ⟨S3300000, .i32⟩
  | 8 => ⟨S3300000, .i1⟩
  | 9 => ⟨S_, .i32⟩
  | 10 => ⟨S3300000, .i32⟩
  | 11 => ⟨S3300000, .i32⟩
  | 12 => ⟨S3300000, .i32⟩
  | 13 => ⟨S3300000x1, .i32⟩
  | 14 => ⟨S3300000x64, .f32⟩
  | 15 => ⟨S3300000x64, .f32⟩
  | 16 => ⟨S3300000x64, .f32⟩
  | 17 => ⟨S_, .f32⟩
  | 18 => ⟨S100000x64, .f32⟩
  | 19 => ⟨S3300000x1, .i32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S3300000x1, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000x64, .f32⟩
  | 38 => ⟨S3300000x64, .f32⟩
  | 39 => ⟨S3300000x64, .f32⟩
  | 40 => ⟨S_, .f32⟩
  | 41 => ⟨S100000x64, .f32⟩
  | 42 => ⟨S3300000x1, .i32⟩
  | 43 => ⟨S100000x64, .f32⟩
  | 44 => ⟨S1x64, .f32⟩
  | 45 => ⟨S100000x64, .f32⟩
  | 46 => ⟨S100000x64, .f32⟩
  | 47 => ⟨S1x1000000, .i32⟩
  | 48 => ⟨S1000000, .i32⟩
  | 49 => ⟨S1x1000000, .i32⟩
  | 50 => ⟨S1000000, .i32⟩
  | 51 => ⟨S_, .i32⟩
  | 52 => ⟨S_, .i32⟩
  | 53 => ⟨S1007616, .i32⟩
  | 54 => ⟨S_, .i32⟩
  | 55 => ⟨S_, .i32⟩
  | 56 => ⟨S1007616, .i32⟩
  | 57 => ⟨S_, .i32⟩
  | 58 => ⟨S1007616, .i32⟩
  | 59 => ⟨S1007616, .i1⟩
  | 60 => ⟨S_, .i32⟩
  | 61 => ⟨S1007616, .i32⟩
  | 62 => ⟨S1007616, .i32⟩
  | 63 => ⟨S1007616, .i32⟩
  | 64 => ⟨S1007616x1, .i32⟩
  | 65 => ⟨S1007616x64, .f32⟩
  | 66 => ⟨S_, .i32⟩
  | 67 => ⟨S1007616, .i32⟩
  | 68 => ⟨S1007616, .i1⟩
  | 69 => ⟨S_, .i32⟩
  | 70 => ⟨S1007616, .i32⟩
  | 71 => ⟨S1007616, .i32⟩
  | 72 => ⟨S1007616, .i32⟩
  | 73 => ⟨S1007616x1, .i32⟩
  | 74 => ⟨S1007616x64, .f32⟩
  | 75 => ⟨S1007616, .f32⟩
  | 76 => ⟨S1000000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S8192x64, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192, .f32⟩
  | .local _ .vmem, ⟨30, _⟩ => ⟨S8192, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call3_cst : Ref sig .tc := ⟨.hbm, 106, rfl⟩
abbrev main_call3_v0 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_c_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_17 : Ref sig .tc := ⟨.hbm, 134, rfl⟩
abbrev main_v91 : Ref sig .tc := ⟨.hbm, 135, rfl⟩
abbrev main_v92 : Ref sig .tc := ⟨.hbm, 136, rfl⟩
abbrev main_c_18 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_19 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call5_cst : Ref sig .tc := ⟨.hbm, 152, rfl⟩
abbrev main_call5_v0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_20 : Ref sig .tc := ⟨.hbm, 157, rfl⟩
abbrev main_v109 : Ref sig .tc := ⟨.hbm, 158, rfl⟩
abbrev main_v110 : Ref sig .tc := ⟨.hbm, 159, rfl⟩
abbrev main_c_21 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_22 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_23 : Ref sig .tc := ⟨.hbm, 179, rfl⟩
abbrev main_call6_v0 : Ref sig .tc := ⟨.hbm, 180, rfl⟩
abbrev main_v128 : Ref sig .tc := ⟨.hbm, 181, rfl⟩
abbrev main_c_24 : Ref sig .tc := ⟨.hbm, 182, rfl⟩
abbrev main_call7_v0 : Ref sig .tc := ⟨.hbm, 183, rfl⟩
abbrev main_v129 : Ref sig .tc := ⟨.hbm, 184, rfl⟩
abbrev main_c_25 : Ref sig .tc := ⟨.hbm, 185, rfl⟩
abbrev main_v130 : Ref sig .tc := ⟨.hbm, 186, rfl⟩
abbrev main_v131 : Ref sig .tc := ⟨.hbm, 187, rfl⟩
abbrev main_c_26 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_c_27 : Ref sig .tc := ⟨.hbm, 194, rfl⟩
abbrev main_v137 : Ref sig .tc := ⟨.hbm, 195, rfl⟩
abbrev main_v138 : Ref sig .tc := ⟨.hbm, 196, rfl⟩
abbrev main_c_28 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![123], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  ![arg0.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  pads_S1000000_S1007616_076160 : S1000000.Pads (![0] : Fin 1 → Nat) ![7616] ![0] S1007616
  h_S_ : 0 < S_.numel
  bcast_S_S1007616 : S_.BroadcastsInDim S1007616 (![] : Fin 0 → Fin S1007616.rank)
  bcast_S1007616_S1007616x1_0 : S1007616.BroadcastsInDim S1007616x1 (![0] : Fin 1 → Fin S1007616x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S8192_S8192_0 : ∀ a, (![0] : Fin 1 → Nat) a + S8192.size a ≤ S8192.size a
  h_S8192 : 0 < S8192.numel
  slices_S1007616_S1000000_0 : S1007616.Slices ![0] S1000000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x32_S32x64_S10000x64_1_0_0_1_n_n_wf : DotDims.WF S10000x32 S32x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  gather_S100000x64_S1007616x1_S1007616x64_1_0_n_n_0_1_164_wf : GatherDims.WF S100000x64 S1007616x1 S1007616x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S1007616x64.size a
  hwx5_0 : ∀ i : grid5.Coords, EltTy.bits .f32 = 32 ∨ (Rect.block (s := S1007616x64) S8192x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S1007616x64.size a
  hwx5_1 : ∀ i : grid5.Coords, EltTy.bits .f32 = 32 ∨ (Rect.block (s := S1007616x64) S8192x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192.size a ≤ S1007616.size a
  hwx5_2 : ∀ i : grid5.Coords, EltTy.bits .f32 = 32 ∨ (Rect.block (s := S1007616) S8192.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1007616x1_S1007616x64_1_0_n_n_0_1_164 : GatherDims S100000x64 S1007616x1 S1007616x64 where
  offsetDims := [1]
  collapsedSliceDims := [0]
  operandBatchingDims := []
  startIndicesBatchingDims := []
  startIndexMap := [0]
  indexVectorDim := 1
  sliceSizes := ![1, 64]
  wf := gather_S100000x64_S1007616x1_S1007616x64_1_0_n_n_0_1_164_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v106) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v136) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v143) S8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v144) S8192.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x32 : Shape := ⟨2, ![100000, 32]⟩
abbrev S3200000 : Shape := ⟨1, ![3200000]⟩
abbrev S32x64 : Shape := ⟨2, ![32, 64]⟩
abbrev S64 : Shape := ⟨1, ![64]⟩
abbrev S64x64 : Shape := ⟨2, ![64, 64]⟩
abbrev S2x3200000 : Shape := ⟨2, ![2, 3200000]⟩
abbrev S2x1000000 : Shape := ⟨2, ![2, 1000000]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 200
  | .vmem => 0
  | .smem => 0
  | _ => 0

abbrev hbmTy0_0 (i : Nat) : BufTy := match i % 128 with
  | 0 => ⟨S100000x32, .f32⟩
  | 1 => ⟨S3200000, .f32⟩
  | 2 => ⟨S32x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S2x3200000, .i32⟩
  | 13 => ⟨S2x1000000, .i32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S100000, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000, .f32⟩
  | 62 => ⟨S3300000, .f32⟩
  | 63 => ⟨S100000x64, .f32⟩
  | 64 => ⟨S3300000x1, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x64, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S3300000x1, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x64, .f32⟩
  | 97 => ⟨S3300000x64, .f32⟩
  | 98 => ⟨S3300000x64, .f32⟩
  | 99 => ⟨S_, .f32⟩
  | 100 => ⟨S100000x64, .f32⟩
  | 101 => ⟨S3300000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S3300000x1, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x64, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x32, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S3300000x1, .f32⟩
  | 6 => ⟨S_, .i32⟩
  | 7 => ⟨S3300000, .i32⟩
  | 8 => ⟨S3300000, .i1⟩
  | 9 => ⟨S_, .i32⟩
  | 10 => ⟨S3300000, .i32⟩
  | 11 => ⟨S3300000, .i32⟩
  | 12 => ⟨S3300000, .i32⟩
  | 13 => ⟨S3300000x1, .i32⟩
  | 14 => ⟨S3300000x64, .f32⟩
  | 15 => ⟨S3300000x64, .f32⟩
  | 16 => ⟨S3300000x64, .f32⟩
  | 17 => ⟨S_, .f32⟩
  | 18 => ⟨S100000x64, .f32⟩
  | 19 => ⟨S3300000x1, .i32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S3300000x1, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000x64, .f32⟩
  | 38 => ⟨S3300000x64, .f32⟩
  | 39 => ⟨S3300000x64, .f32⟩
  | 40 => ⟨S_, .f32⟩
  | 41 => ⟨S100000x64, .f32⟩
  | 42 => ⟨S3300000x1, .i32⟩
  | 43 => ⟨S100000x64, .f32⟩
  | 44 => ⟨S1x64, .f32⟩
  | 45 => ⟨S100000x64, .f32⟩
  | 46 => ⟨S100000x64, .f32⟩
  | 47 => ⟨S1x1000000, .i32⟩
  | 48 => ⟨S1000000, .i32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S1x1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S1000000x64, .f32⟩
  | 70 => ⟨S_, .f32⟩
  | 71 => ⟨S1000000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call3_cst : Ref sig .tc := ⟨.hbm, 106, rfl⟩
abbrev main_call3_v0 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_c_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_17 : Ref sig .tc := ⟨.hbm, 134, rfl⟩
abbrev main_v91 : Ref sig .tc := ⟨.hbm, 135, rfl⟩
abbrev main_v92 : Ref sig .tc := ⟨.hbm, 136, rfl⟩
abbrev main_c_18 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_19 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call5_cst : Ref sig .tc := ⟨.hbm, 152, rfl⟩
abbrev main_call5_v0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_20 : Ref sig .tc := ⟨.hbm, 157, rfl⟩
abbrev main_v109 : Ref sig .tc := ⟨.hbm, 158, rfl⟩
abbrev main_v110 : Ref sig .tc := ⟨.hbm, 159, rfl⟩
abbrev main_c_21 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_22 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_23 : Ref sig .tc := ⟨.hbm, 177, rfl⟩
abbrev main_v126 : Ref sig .tc := ⟨.hbm, 178, rfl⟩
abbrev main_v127 : Ref sig .tc := ⟨.hbm, 179, rfl⟩
abbrev main_c_24 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_25 : Ref sig .tc := ⟨.hbm, 188, rfl⟩
abbrev main_v135 : Ref sig .tc := ⟨.hbm, 189, rfl⟩
abbrev main_v136 : Ref sig .tc := ⟨.hbm, 190, rfl⟩
abbrev main_c_26 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_27 : Ref sig .tc := ⟨.hbm, 198, rfl⟩
abbrev main_v143 : Ref sig .tc := ⟨.hbm, 199, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.KernelRun.lean ====
/-
  The idealized kernel's whole run, with its result named.

  The program is six kernel regions among stretches of host operations. Every weakly fair execution ends, nothing
  faults, and at the end every buffer the program does not scope holds what the fold through the program's
  segments leaves in it (the generated `W25`): a host stretch rewrites the buffers its operations write, a region
  leaves each of its arrays at what its write-backs leave. The generated frame keeps of this only that the argument
  arrays end as launched; here the same run is read at the result buffer as well.
-/
import proofs.«153558_j60687887892626_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with every unscoped buffer of every core at
    the contents the fold through the segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h => h)

/-- The run read at the result buffer and at the arguments: the result holds the fold's contents, the arguments
    what they were launched with. -/
theorem run_result : θ_run defs (onTc (τ := τ) (main (F := F))) ⟨m, fun _ => 0, ρ⟩ (fun r => ∀ c : Dev nD,
      r.2.mem ((c.tc : Thread nD τ).loc main_v145) = W25 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v145 (by decide)),
      (h c _ (mem_uc main_arg0 (by decide))).trans (W25_main_arg0 m ρ c),
      (h c _ (mem_uc main_arg1 (by decide))).trans (W25_main_arg1 m ρ c),
      (h c _ (mem_uc main_arg2 (by decide))).trans (W25_main_arg2 m ρ c),
      (h c _ (mem_uc main_arg3 (by decide))).trans (W25_main_arg3 m ρ c),
      (h c _ (mem_uc main_arg4 (by decide))).trans (W25_main_arg4 m ρ c),
      (h c _ (mem_uc main_arg5 (by decide))).trans (W25_main_arg5 m ρ c),
      (h c _ (mem_uc main_arg6 (by decide))).trans (W25_main_arg6 m ρ c),
      (h c _ (mem_uc main_arg7 (by decide))).trans (W25_main_arg7 m ρ c),
      (h c _ (mem_uc main_arg8 (by decide))).trans (W25_main_arg8 m ρ c),
      (h c _ (mem_uc main_arg9 (by decide))).trans (W25_main_arg9 m ρ c),
      (h c _ (mem_uc main_arg10 (by decide))).trans (W25_main_arg10 m ρ c),
      (h c _ (mem_uc main_arg11 (by decide))).trans (W25_main_arg11 m ρ c),
      (h c _ (mem_uc main_arg12 (by decide))).trans (W25_main_arg12 m ρ c),
      (h c _ (mem_uc main_arg13 (by decide))).trans (W25_main_arg13 m ρ c)⟩) (run_all m ρ)

end Cert.KernelIdeal.Whole

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Spec.lean ====
/-
  The two array functions the kernel regions compute, at the extended reals.

  `mm X W` is the matrix product: entry (r, c) is the sum over k of X (r, k) · W (k, c).
  `rowdot A B` is the row-by-row inner product: entry r is the sum over k of A (r, k) · B (r, k).
  The host's `dot_general` with the plain dimension numbers is `mm`, and the host's sum over the second axis of an
  elementwise product, started from zero, is `rowdot`.
-/
import proofs.«153558_j60687887892626_1_alg».proof.Proof.LibPlainDot
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

variable {M K N : Nat}

/-- The matrix product of an M × K array with a K × N array, index by index. -/
def mm (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The inner products of the rows of two M × K arrays, index by index. -/
def rowdot (A B : FVec Ideal ⟨2, ![M, K]⟩ .f32) : FVec Ideal ⟨1, ![M]⟩ .f32 :=
  fun i => ∑ k : Fin K, A (ix2 (i 0) k) * B (ix2 (i 0) k)

/-- The host's `dot_general` with the plain dimension numbers is the matrix product. -/
theorem dotGeneral_eq_mm (prec : Option ContractPrecision) (X : FVec Ideal ⟨2, ![M, K]⟩ .f32) (W : FVec Ideal ⟨2, ![K, N]⟩ .f32) :
    Host.dotGeneral (F := Ideal) (DotDims.plain M K N) prec X W = mm X W := by
  funext i
  simp only [Host.dotGeneral]
  exact Cert.Proof.PlainDot.dotGeneral_plain prec _ X W i

end Cert.Spec

end
-- ==== Proof.Casts.lean ====
/-
  Values passed into and out of the outlined functions.

  An operation of a function the program calls (the two choices by a mask, the four cuts at zero) names its
  operand and result buffers together with their types, and moves a value between "contents of this buffer" and
  "contents of this type" along the equation of the two. For each buffer so named the two types are the same type,
  and the move is the identity.
-/
import proofs.«153558_j60687887892626_1_alg».proof.Proof.Gen.KernelIdeal.Frame
import Idealize.ShloMosaic.Lib.StableHlo
import Idealize.ShloMosaic.PureOps.Ideal

noncomputable section

namespace Cert.KernelIdeal.Casts

open Idealize.ShloMosaic Idealize.ShloMosaic.TcCoe Idealize.SL.Sem Idealize.ShloMosaic.StableHlo
open Cert.KernelIdeal

theorem toBuf_main_cst_3 (h1 h2 h3) (v : (⟨S_, .f32⟩ : BufTy).Contents (Elt Ideal)) :
    (TRef.of main_cst_3 h1 h2 h3 : TRef sig ⟨S_, .f32⟩).toBuf (Val := Elt Ideal) v = v := rfl
theorem ofBuf_main_cst_3 (h1 h2 h3) (v : (main_cst_3 : Ref sig .tc).ty.Contents (Elt Ideal)) :
    (TRef.of main_cst_3 h1 h2 h3 : TRef sig ⟨S_, .f32⟩).ofBuf (Val := Elt Ideal) v = v := rfl
theorem toBuf_main_call0_v0 (h1 h2 h3) (v : (⟨S_, .f32⟩ : BufTy).Contents (Elt Ideal)) :
    (TRef.of main_call0_v0 h1 h2 h3 : TRef sig ⟨S_, .f32⟩).toBuf (Val := Elt Ideal) v = v := rfl
theorem ofBuf_main_call0_v0 (h1 h2 h3) (v : (main_call0_v0 : Ref sig .tc).ty.Contents (Elt Ideal)) :
    (TRef.of main_call0_v0 h1 h2 h3 : TRef sig ⟨S_, .f32⟩).ofBuf (Val := Elt Ideal) v = v := rfl
theorem toBuf_main_call0_v1 (h1 h2 h3) (v : (⟨S100000, .f32⟩ : BufTy).Contents (Elt Ideal)) :
    (TRef.of main_call0_v1 h1 h2 h3 : TRef sig ⟨S100000, .f32⟩).toBuf (Val := Elt Ideal) v = v := rfl
theorem ofBuf_main_call0_v1 (h1 h2 h3) (v : (main_call0_v1 : Ref sig .tc).ty.Contents (Elt Ideal)) :
    (TRef.of main_call0_v1 h1 h2 h3 : TRef sig ⟨S100000, .f32⟩).ofBuf (Val := Elt Ideal) v = v := rfl
theorem toBuf_main_v15 (h1 h2 h3) (v : (⟨S100000, .i1⟩ : BufTy).Contents (Elt Ideal)) :
    (TRef.of main_v15 h1 h2 h3 : TRef sig ⟨S100000, .i1⟩).toBuf (Val := Elt Ideal) v = v := rfl
theorem ofBuf_main_v15 (h1 h2 h3) (v : (main_v15 : Ref sig .tc).ty.Contents (Elt Ideal)) :
    (TRef.of main_v15 h1 h2 h3 : TRef sig ⟨S100000, .i1⟩).ofBuf (Val := Elt Ideal) v = v := rfl
theorem toBuf_main_v11 (h1 h2 h3) (v : (⟨S100000, .f32⟩ : BufTy).Contents (Elt Ideal)) :
    (TRef.of main_v11 h1 h2 h3 : TRef sig ⟨S100000, .f32⟩).toBuf (Val := Elt Ideal) v = v := rfl
theorem ofBuf_main_v11 (h1 h2 h3) (v : (main_v11 : Ref sig .tc).ty.Contents (Elt Ideal)) :
    (TRef.of main_v11 h1 h2 h3 : TRef sig ⟨S100000, .f32⟩).ofBuf (Val := Elt Ideal) v = v := rfl
theorem toBuf_main_v16 (h1 h2 h3) (v : (⟨S100000, .f32⟩ : BufTy).Contents (Elt Ideal)) :
    (TRef.of main_v16 h1 h2 h3 : TRef sig ⟨S100000, .f32⟩).toBuf (Val := Elt Ideal) v = v := rfl
theorem ofBuf_main_v16 (h1 h2 h3) (v : (main_v16 : Ref sig .tc).ty.Contents (Elt Ideal)) :
    (TRef.of main_v16 h1 h2 h3 : TRef sig ⟨S100000, .f32⟩).ofBuf (Val := Elt Ideal) v = v := rfl
theorem toBuf_main_cst_4 (h1 h2 h3) (v : (⟨S_, .f32⟩ : BufTy).Contents (Elt Ideal)) :
    (TRef.of main_cst_4 h1 h2 h3 : TRef sig ⟨S_, .f32⟩).toBuf (Val := Elt Ideal) v = v := rfl
theorem ofBuf_main_cst_4 (h1 h2 h3) (v : (main_cst_4 : Ref sig .tc).ty.Contents (Elt Ideal)) :
    (TRef.of main_cst_4 h1 h2 h3 : TRef sig ⟨S_, .f32⟩).ofBuf (Val := Elt Ideal) v = v := rfl
theorem toBuf_main_call1_v0 (h1 h2 h3) (v : (⟨S_, .f32⟩ : BufTy).Contents (Elt Ideal)) :
    (TRef.of main_call1_v0 h1 h2 h3 : TRef sig ⟨S_, .f32⟩).toBuf (Val := Elt Ideal) v = v := rfl
theorem ofBuf_main_call1_v0 (h1 h2 h3) (v : (main_call1_v0 : Ref sig .tc).ty.Contents (Elt Ideal)) :
    (TRef.of main_call1_v0 h1 h2 h3 : TRef sig ⟨S_, .f32⟩).ofBuf (Val := Elt Ideal) v = v := rfl
theorem toBuf_main_call1_v1 (h1 h2 h3) (v : (⟨S100000, .f32⟩ : BufTy).Contents (Elt Ideal)) :
    (TRef.of main_call1_v1 h1 h2 h3 : TRef sig ⟨S100000, .f32⟩).toBuf (Val := Elt Ideal) v = v := rfl
theorem ofBuf_main_call1_v1 (h1 h2 h3) (v : (main_call1_v1 : Ref sig .tc).ty.Contents (Elt Ideal)) :
    (TRef.of main_call1_v1 h1 h2 h3 : TRef sig ⟨S100000, .f32⟩).ofBuf (Val := Elt Ideal) v = v := rfl
theorem toBuf_main_v13 (h1 h2 h3) (v : (⟨S100000, .i1⟩ : BufTy).Contents (Elt Ideal)) :
    (TRef.of main_v13 h1 h2 h3 : TRef sig ⟨S100000, .i1⟩).toBuf (Val := Elt Ideal) v = v := rfl
theorem ofBuf_main_v13 (h1 h2 h3) (v : (main_v13 : Ref sig .tc).ty.Contents (Elt Ideal)) :
    (TRef.of main_v13 h1 h2 h3 : TRef sig ⟨S100000, .i1⟩).ofBuf (Val := Elt Ideal) v = v := rfl
theorem toBuf_main_v17 (h1 h2 h3) (v : (⟨S100000, .f32⟩ : BufTy).Contents (Elt Ideal)) :
    (TRef.of main_v17 h1 h2 h3 : TRef sig ⟨S100000, .f32⟩).toBuf (Val := Elt Ideal) v = v := rfl
theorem ofBuf_main_v17 (h1 h2 h3) (v : (main_v17 : Ref sig .tc).ty.Contents (Elt Ideal)) :
    (TRef.of main_v17 h1 h2 h3 : TRef sig ⟨S100000, .f32⟩).ofBuf (Val := Elt Ideal) v = v := rfl
theorem toBuf_main_v18 (h1 h2 h3) (v : (⟨S100000, .f32⟩ : BufTy).Contents (Elt Ideal)) :
    (TRef.of main_v18 h1 h2 h3 : TRef sig ⟨S100000, .f32⟩).toBuf (Val := Elt Ideal) v = v := rfl
theorem ofBuf_main_v18 (h1 h2 h3) (v : (main_v18 : Ref sig .tc).ty.Contents (Elt Ideal)) :
    (TRef.of main_v18 h1 h2 h3 : TRef sig ⟨S100000, .f32⟩).ofBuf (Val := Elt Ideal) v = v := rfl
theorem toBuf_main_call2_cst (h1 h2 h3) (v : (⟨S_, .f32⟩ : BufTy).Contents (Elt Ideal)) :
    (TRef.of main_call2_cst h1 h2 h3 : TRef sig ⟨S_, .f32⟩).toBuf (Val := Elt Ideal) v = v := rfl
theorem ofBuf_main_call2_cst (h1 h2 h3) (v : (main_call2_cst : Ref sig .tc).ty.Contents (Elt Ideal)) :
    (TRef.of main_call2_cst h1 h2 h3 : TRef sig ⟨S_, .f32⟩).ofBuf (Val := Elt Ideal) v = v := rfl
theorem toBuf_main_call2_v0 (h1 h2 h3) (v : (⟨S100000x64, .f32⟩ : BufTy).Contents (Elt Ideal)) :
    (TRef.of main_call2_v0 h1 h2 h3 : TRef sig ⟨S100000x64, .f32⟩).toBuf (Val := Elt Ideal) v = v := rfl
theorem ofBuf_main_call2_v0 (h1 h2 h3) (v : (main_call2_v0 : Ref sig .tc).ty.Contents (Elt Ideal)) :
    (TRef.of main_call2_v0 h1 h2 h3 : TRef sig ⟨S100000x64, .f32⟩).ofBuf (Val := Elt Ideal) v = v := rfl
theorem toBuf_main_v51 (h1 h2 h3) (v : (⟨S100000x64, .f32⟩ : BufTy).Contents (Elt Ideal)) :
    (TRef.of main_v51 h1 h2 h3 : TRef sig ⟨S100000x64, .f32⟩).toBuf (Val := Elt Ideal) v = v := rfl
theorem ofBuf_main_v51 (h1 h2 h3) (v : (main_v51 : Ref sig .tc).ty.Contents (Elt Ideal)) :
    (TRef.of main_v51 h1 h2 h3 : TRef sig ⟨S100000x64, .f32⟩).ofBuf (Val := Elt Ideal) v = v := rfl
theorem toBuf_main_v52 (h1 h2 h3) (v : (⟨S100000x64, .f32⟩ : BufTy).Contents (Elt Ideal)) :
    (TRef.of main_v52 h1 h2 h3 : TRef sig ⟨S100000x64, .f32⟩).toBuf (Val := Elt Ideal) v = v := rfl
theorem ofBuf_main_v52 (h1 h2 h3) (v : (main_v52 : Ref sig .tc).ty.Contents (Elt Ideal)) :
    (TRef.of main_v52 h1 h2 h3 : TRef sig ⟨S100000x64, .f32⟩).ofBuf (Val := Elt Ideal) v = v := rfl
theorem toBuf_main_call3_cst (h1 h2 h3) (v : (⟨S_, .f32⟩ : BufTy).Contents (Elt Ideal)) :
    (TRef.of main_call3_cst h1 h2 h3 : TRef sig ⟨S_, .f32⟩).toBuf (Val := Elt Ideal) v = v := rfl
theorem ofBuf_main_call3_cst (h1 h2 h3) (v : (main_call3_cst : Ref sig .tc).ty.Contents (Elt Ideal)) :
    (TRef.of main_call3_cst h1 h2 h3 : TRef sig ⟨S_, .f32⟩).ofBuf (Val := Elt Ideal) v = v := rfl
theorem toBuf_main_call3_v0 (h1 h2 h3) (v : (⟨S100000x64, .f32⟩ : BufTy).Contents (Elt Ideal)) :
    (TRef.of main_call3_v0 h1 h2 h3 : TRef sig ⟨S100000x64, .f32⟩).toBuf (Val := Elt Ideal) v = v := rfl
theorem ofBuf_main_call3_v0 (h1 h2 h3) (v : (main_call3_v0 : Ref sig .tc).ty.Contents (Elt Ideal)) :
    (TRef.of main_call3_v0 h1 h2 h3 : TRef sig ⟨S100000x64, .f32⟩).ofBuf (Val := Elt Ideal) v = v := rfl
theorem toBuf_main_v69 (h1 h2 h3) (v : (⟨S100000x64, .f32⟩ : BufTy).Contents (Elt Ideal)) :
    (TRef.of main_v69 h1 h2 h3 : TRef sig ⟨S100000x64, .f32⟩).toBuf (Val := Elt Ideal) v = v := rfl
theorem ofBuf_main_v69 (h1 h2 h3) (v : (main_v69 : Ref sig .tc).ty.Contents (Elt Ideal)) :
    (TRef.of main_v69 h1 h2 h3 : TRef sig ⟨S100000x64, .f32⟩).ofBuf (Val := Elt Ideal) v = v := rfl
theorem toBuf_main_v70 (h1 h2 h3) (v : (⟨S100000x64, .f32⟩ : BufTy).Contents (Elt Ideal)) :
    (TRef.of main_v70 h1 h2 h3 : TRef sig ⟨S100000x64, .f32⟩).toBuf (Val := Elt Ideal) v = v := rfl
theorem ofBuf_main_v70 (h1 h2 h3) (v : (main_v70 : Ref sig .tc).ty.Contents (Elt Ideal)) :
    (TRef.of main_v70 h1 h2 h3 : TRef sig ⟨S100000x64, .f32⟩).ofBuf (Val := Elt Ideal) v = v := rfl
theorem toBuf_main_call4_cst (h1 h2 h3) (v : (⟨S_, .f32⟩ : BufTy).Contents (Elt Ideal)) :
    (TRef.of main_call4_cst h1 h2 h3 : TRef sig ⟨S_, .f32⟩).toBuf (Val := Elt Ideal) v = v := rfl
theorem ofBuf_main_call4_cst (h1 h2 h3) (v : (main_call4_cst : Ref sig .tc).ty.Contents (Elt Ideal)) :
    (TRef.of main_call4_cst h1 h2 h3 : TRef sig ⟨S_, .f32⟩).ofBuf (Val := Elt Ideal) v = v := rfl
theorem toBuf_main_call4_v0 (h1 h2 h3) (v : (⟨S100000x64, .f32⟩ : BufTy).Contents (Elt Ideal)) :
    (TRef.of main_call4_v0 h1 h2 h3 : TRef sig ⟨S100000x64, .f32⟩).toBuf (Val := Elt Ideal) v = v := rfl
theorem ofBuf_main_call4_v0 (h1 h2 h3) (v : (main_call4_v0 : Ref sig .tc).ty.Contents (Elt Ideal)) :
    (TRef.of main_call4_v0 h1 h2 h3 : TRef sig ⟨S100000x64, .f32⟩).ofBuf (Val := Elt Ideal) v = v := rfl
theorem toBuf_main_v87 (h1 h2 h3) (v : (⟨S100000x64, .f32⟩ : BufTy).Contents (Elt Ideal)) :
    (TRef.of main_v87 h1 h2 h3 : TRef sig ⟨S100000x64, .f32⟩).toBuf (Val := Elt Ideal) v = v := rfl
theorem ofBuf_main_v87 (h1 h2 h3) (v : (main_v87 : Ref sig .tc).ty.Contents (Elt Ideal)) :
    (TRef.of main_v87 h1 h2 h3 : TRef sig ⟨S100000x64, .f32⟩).ofBuf (Val := Elt Ideal) v = v := rfl
theorem toBuf_main_v88 (h1 h2 h3) (v : (⟨S100000x64, .f32⟩ : BufTy).Contents (Elt Ideal)) :
    (TRef.of main_v88 h1 h2 h3 : TRef sig ⟨S100000x64, .f32⟩).toBuf (Val := Elt Ideal) v = v := rfl
theorem ofBuf_main_v88 (h1 h2 h3) (v : (main_v88 : Ref sig .tc).ty.Contents (Elt Ideal)) :
    (TRef.of main_v88 h1 h2 h3 : TRef sig ⟨S100000x64, .f32⟩).ofBuf (Val := Elt Ideal) v = v := rfl
theorem toBuf_main_call5_cst (h1 h2 h3) (v : (⟨S_, .f32⟩ : BufTy).Contents (Elt Ideal)) :
    (TRef.of main_call5_cst h1 h2 h3 : TRef sig ⟨S_, .f32⟩).toBuf (Val := Elt Ideal) v = v := rfl
theorem ofBuf_main_call5_cst (h1 h2 h3) (v : (main_call5_cst : Ref sig .tc).ty.Contents (Elt Ideal)) :
    (TRef.of main_call5_cst h1 h2 h3 : TRef sig ⟨S_, .f32⟩).ofBuf (Val := Elt Ideal) v = v := rfl
theorem toBuf_main_call5_v0 (h1 h2 h3) (v : (⟨S100000x64, .f32⟩ : BufTy).Contents (Elt Ideal)) :
    (TRef.of main_call5_v0 h1 h2 h3 : TRef sig ⟨S100000x64, .f32⟩).toBuf (Val := Elt Ideal) v = v := rfl
theorem ofBuf_main_call5_v0 (h1 h2 h3) (v : (main_call5_v0 : Ref sig .tc).ty.Contents (Elt Ideal)) :
    (TRef.of main_call5_v0 h1 h2 h3 : TRef sig ⟨S100000x64, .f32⟩).ofBuf (Val := Elt Ideal) v = v := rfl
theorem toBuf_main_v105 (h1 h2 h3) (v : (⟨S100000x64, .f32⟩ : BufTy).Contents (Elt Ideal)) :
    (TRef.of main_v105 h1 h2 h3 : TRef sig ⟨S100000x64, .f32⟩).toBuf (Val := Elt Ideal) v = v := rfl
theorem ofBuf_main_v105 (h1 h2 h3) (v : (main_v105 : Ref sig .tc).ty.Contents (Elt Ideal)) :
    (TRef.of main_v105 h1 h2 h3 : TRef sig ⟨S100000x64, .f32⟩).ofBuf (Val := Elt Ideal) v = v := rfl
theorem toBuf_main_v106 (h1 h2 h3) (v : (⟨S100000x64, .f32⟩ : BufTy).Contents (Elt Ideal)) :
    (TRef.of main_v106 h1 h2 h3 : TRef sig ⟨S100000x64, .f32⟩).toBuf (Val := Elt Ideal) v = v := rfl
theorem ofBuf_main_v106 (h1 h2 h3) (v : (main_v106 : Ref sig .tc).ty.Contents (Elt Ideal)) :
    (TRef.of main_v106 h1 h2 h3 : TRef sig ⟨S100000x64, .f32⟩).ofBuf (Val := Elt Ideal) v = v := rfl

end Cert.KernelIdeal.Casts

end
-- ==== Proof.StretchA.lean ====
/-
  The host stretch before the first region, in five steps.

  The stretch builds the edge lists with a self loop per node appended (two concatenations), the edge weights with
  the self loops' ones appended, each node's weighted degree (a sum of the weights into the edges' targets), the
  inverse square root of the positive degrees (zero elsewhere), and from these the normalised weight of every edge:
  the inverse square root at its source, times its weight, times the inverse square root at its target. Each step's
  values are the reference's values of the same names, given that the values it starts from are.
-/
import proofs.«153558_j60687887892626_1_alg».proof.Proof.Gen.KernelIdeal.Frame
import proofs.«153558_j60687887892626_1_alg».proof.Proof.Gen.ReferenceIdeal.Read
import proofs.«153558_j60687887892626_1_alg».proof.Proof.Casts
import Idealize.ShloMosaic.Lib.StableHlo.Run
import Idealize.ShloMosaic.PureOps.Ideal

set_option maxRecDepth 16384

noncomputable section

namespace Cert.KernelIdeal.StretchA

open Idealize.ShloMosaic Idealize.ShloMosaic.TcCoe Idealize.SL.Sem Idealize.ShloMosaic.StableHlo
open Cert.KernelIdeal Cert.KernelIdeal.Gen
open Cert.ReferenceIdeal.Read

/-! ## Step 1: the lists with self loops, the degrees and their signs -/

/-- The source endpoints, the self loops appended. -/
theorem a1_v3 (V : Valuation τ sig (Elt Ideal)) :
    after hostOps0 V (Proc.devRef .tc main_v3) = val_main_v3 (F := Ideal) (V (Proc.devRef .tc main_arg12)) := by
  simp only [hostOps0]
  after_results_simp <;> rfl
/-- The target endpoints, the self loops appended. -/
theorem a1_v6 (V : Valuation τ sig (Elt Ideal)) :
    after hostOps0 V (Proc.devRef .tc main_v6) = val_main_v6 (F := Ideal) (V (Proc.devRef .tc main_arg12)) := by
  simp only [hostOps0]
  after_results_simp <;> rfl
/-- The edge weights, the self loops' ones appended. -/
theorem a1_v8 (V : Valuation τ sig (Elt Ideal)) :
    after hostOps0 V (Proc.devRef .tc main_v8) = val_main_v8 (F := Ideal) (V (Proc.devRef .tc main_arg1)) := by
  simp only [hostOps0]
  after_results_simp <;> rfl
/-- The weighted degrees. -/
theorem a1_v11 (V : Valuation τ sig (Elt Ideal)) :
    after hostOps0 V (Proc.devRef .tc main_v11) = val_main_v11 (F := Ideal) (V (Proc.devRef .tc main_arg1)) (V (Proc.devRef .tc main_arg12)) := by
  simp only [hostOps0]
  after_results_simp <;> rfl
/-- Where the degree is positive (read once for the outer choice). -/
theorem a1_v13 (V : Valuation τ sig (Elt Ideal)) :
    after hostOps0 V (Proc.devRef .tc main_v13) = val_main_v13 (F := Ideal) (V (Proc.devRef .tc main_arg1)) (V (Proc.devRef .tc main_arg12)) := by
  simp only [hostOps0]
  after_results_simp <;> rfl
/-- Where the degree is positive (read once for the inner choice). -/
theorem a1_v15 (V : Valuation τ sig (Elt Ideal)) :
    after hostOps0 V (Proc.devRef .tc main_v15) = val_main_v15 (F := Ideal) (V (Proc.devRef .tc main_arg1)) (V (Proc.devRef .tc main_arg12)) := by
  simp only [hostOps0]
  after_results_simp <;> rfl
/-- The one the non-positive degrees are replaced by. -/
theorem a1_cst3 (V : Valuation τ sig (Elt Ideal)) :
    after hostOps0 V (Proc.devRef .tc main_cst_3) = val_main_cst_3 (F := Ideal) := by
  simp only [hostOps0]
  after_results_simp <;> rfl

/-! ## Step 2: the degrees with the non-positive ones replaced by one -/

theorem a2_v16 (V : Valuation τ sig (Elt Ideal)) (x1 : (⟨S3200000, .f32⟩ : BufTy).Contents (Elt Ideal)) (x12 : (⟨S2x3200000, .i32⟩ : BufTy).Contents (Elt Ideal))
    (h15 : V (Proc.devRef .tc main_v15) = val_main_v15 (F := Ideal) x1 x12)
    (h11 : V (Proc.devRef .tc main_v11) = val_main_v11 (F := Ideal) x1 x12)
    (hc : V (Proc.devRef .tc main_cst_3) = val_main_cst_3 (F := Ideal)) :
    after hostOps0_1 V (Proc.devRef .tc main_v16) = val_main_v16 (F := Ideal) x1 x12 := by
  simp only [hostOps0_1]
  after_results_simp
  simp only [Casts.toBuf_main_cst_3, Casts.ofBuf_main_cst_3, Casts.toBuf_main_call0_v0, Casts.ofBuf_main_call0_v0, Casts.toBuf_main_call0_v1, Casts.ofBuf_main_call0_v1, Casts.toBuf_main_v15, Casts.ofBuf_main_v15, Casts.toBuf_main_v11, Casts.ofBuf_main_v11, Casts.toBuf_main_v16, Casts.ofBuf_main_v16]
  rw [h15, h11, hc]
  rfl

theorem keep2_main_v3 (V : Valuation τ sig (Elt Ideal)) :
    after hostOps0_1 V (Proc.devRef .tc main_v3) = V (Proc.devRef .tc main_v3) := by
  simp only [hostOps0_1]
  after_results_simp

theorem keep2_main_v6 (V : Valuation τ sig (Elt Ideal)) :
    after hostOps0_1 V (Proc.devRef .tc main_v6) = V (Proc.devRef .tc main_v6) := by
  simp only [hostOps0_1]
  after_results_simp

theorem keep2_main_v8 (V : Valuation τ sig (Elt Ideal)) :
    after hostOps0_1 V (Proc.devRef .tc main_v8) = V (Proc.devRef .tc main_v8) := by
  simp only [hostOps0_1]
  after_results_simp

theorem keep2_main_v13 (V : Valuation τ sig (Elt Ideal)) :
    after hostOps0_1 V (Proc.devRef .tc main_v13) = V (Proc.devRef .tc main_v13) := by
  simp only [hostOps0_1]
  after_results_simp

/-! ## Step 3: their inverse square roots -/

theorem a3_v17 (V : Valuation τ sig (Elt Ideal)) (x1 : (⟨S3200000, .f32⟩ : BufTy).Contents (Elt Ideal)) (x12 : (⟨S2x3200000, .i32⟩ : BufTy).Contents (Elt Ideal))
    (h16 : V (Proc.devRef .tc main_v16) = val_main_v16 (F := Ideal) x1 x12) :
    after hostOps0_2 V (Proc.devRef .tc main_v17) = val_main_v17 (F := Ideal) x1 x12 := by
  simp only [hostOps0_2]
  after_results_simp
  rw [h16]
  rfl

/-- The zero the non-positive degrees' inverse square roots are replaced by. -/
theorem a3_cst4 (V : Valuation τ sig (Elt Ideal)) :
    after hostOps0_2 V (Proc.devRef .tc main_cst_4) = val_main_cst_4 (F := Ideal) := by
  simp only [hostOps0_2]
  after_results_simp <;> rfl

theorem keep3_main_v3 (V : Valuation τ sig (Elt Ideal)) :
    after hostOps0_2 V (Proc.devRef .tc main_v3) = V (Proc.devRef .tc main_v3) := by
  simp only [hostOps0_2]
  after_results_simp

theorem keep3_main_v6 (V : Valuation τ sig (Elt Ideal)) :
    after hostOps0_2 V (Proc.devRef .tc main_v6) = V (Proc.devRef .tc main_v6) := by
  simp only [hostOps0_2]
  after_results_simp

theorem keep3_main_v8 (V : Valuation τ sig (Elt Ideal)) :
    after hostOps0_2 V (Proc.devRef .tc main_v8) = V (Proc.devRef .tc main_v8) := by
  simp only [hostOps0_2]
  after_results_simp

theorem keep3_main_v13 (V : Valuation τ sig (Elt Ideal)) :
    after hostOps0_2 V (Proc.devRef .tc main_v13) = V (Proc.devRef .tc main_v13) := by
  simp only [hostOps0_2]
  after_results_simp

/-! ## Step 4: zero where the degree is not positive -/

theorem a4_v18 (V : Valuation τ sig (Elt Ideal)) (x1 : (⟨S3200000, .f32⟩ : BufTy).Contents (Elt Ideal)) (x12 : (⟨S2x3200000, .i32⟩ : BufTy).Contents (Elt Ideal))
    (h13 : V (Proc.devRef .tc main_v13) = val_main_v13 (F := Ideal) x1 x12)
    (h17 : V (Proc.devRef .tc main_v17) = val_main_v17 (F := Ideal) x1 x12)
    (hc : V (Proc.devRef .tc main_cst_4) = val_main_cst_4 (F := Ideal)) :
    after hostOps0_3 V (Proc.devRef .tc main_v18) = val_main_v18 (F := Ideal) x1 x12 := by
  simp only [hostOps0_3]
  after_results_simp
  simp only [Casts.toBuf_main_cst_4, Casts.ofBuf_main_cst_4, Casts.toBuf_main_call1_v0, Casts.ofBuf_main_call1_v0, Casts.toBuf_main_call1_v1, Casts.ofBuf_main_call1_v1, Casts.toBuf_main_v13, Casts.ofBuf_main_v13, Casts.toBuf_main_v17, Casts.ofBuf_main_v17, Casts.toBuf_main_v18, Casts.ofBuf_main_v18]
  rw [h13, h17, hc]
  rfl

theorem keep4_main_v3 (V : Valuation τ sig (Elt Ideal)) :
    after hostOps0_3 V (Proc.devRef .tc main_v3) = V (Proc.devRef .tc main_v3) := by
  simp only [hostOps0_3]
  after_results_simp

theorem keep4_main_v6 (V : Valuation τ sig (Elt Ideal)) :
    after hostOps0_3 V (Proc.devRef .tc main_v6) = V (Proc.devRef .tc main_v6) := by
  simp only [hostOps0_3]
  after_results_simp

theorem keep4_main_v8 (V : Valuation τ sig (Elt Ideal)) :
    after hostOps0_3 V (Proc.devRef .tc main_v8) = V (Proc.devRef .tc main_v8) := by
  simp only [hostOps0_3]
  after_results_simp

/-! ## Step 5: the normalised edge weights -/

theorem a5_v34 (V : Valuation τ sig (Elt Ideal)) (x1 : (⟨S3200000, .f32⟩ : BufTy).Contents (Elt Ideal)) (x12 : (⟨S2x3200000, .i32⟩ : BufTy).Contents (Elt Ideal))
    (h3 : V (Proc.devRef .tc main_v3) = val_main_v3 (F := Ideal) x12)
    (h6 : V (Proc.devRef .tc main_v6) = val_main_v6 (F := Ideal) x12)
    (h8 : V (Proc.devRef .tc main_v8) = val_main_v8 (F := Ideal) x1)
    (h18 : V (Proc.devRef .tc main_v18) = val_main_v18 (F := Ideal) x1 x12) :
    after hostOps0_4 V (Proc.devRef .tc main_v34) = val_main_v34 (F := Ideal) x1 x12 := by
  simp only [hostOps0_4]
  after_results_simp
  rw [h3, h6, h8, h18]
  rfl

theorem keep5_main_v3 (V : Valuation τ sig (Elt Ideal)) :
    after hostOps0_4 V (Proc.devRef .tc main_v3) = V (Proc.devRef .tc main_v3) := by
  simp only [hostOps0_4]
  after_results_simp

theorem keep5_main_v6 (V : Valuation τ sig (Elt Ideal)) :
    after hostOps0_4 V (Proc.devRef .tc main_v6) = V (Proc.devRef .tc main_v6) := by
  simp only [hostOps0_4]
  after_results_simp

end Cert.KernelIdeal.StretchA

end
-- ==== Proof.StretchKA.lean ====
/-
  The arguments pass through the host stretch before the first region: none of its operations writes one.
-/
import proofs.«153558_j60687887892626_1_alg».proof.Proof.Gen.KernelIdeal.Frame
import proofs.«153558_j60687887892626_1_alg».proof.Proof.Gen.ReferenceIdeal.Read
import Idealize.ShloMosaic.Lib.StableHlo.Run
import Idealize.ShloMosaic.PureOps.Ideal

set_option maxRecDepth 16384

noncomputable section

namespace Cert.KernelIdeal.StretchKA

open Idealize.ShloMosaic Idealize.ShloMosaic.TcCoe Idealize.SL.Sem Idealize.ShloMosaic.StableHlo
open Cert.KernelIdeal Cert.KernelIdeal.Gen
open Cert.ReferenceIdeal.Read

theorem keepA_main_arg0 (V : Valuation τ sig (Elt Ideal)) :
    after hostOps0_4 (after hostOps0_3 (after hostOps0_2 (after hostOps0_1 (after hostOps0 V)))) (Proc.devRef .tc main_arg0) = V (Proc.devRef .tc main_arg0) := by
  simp only [hostOps0_4, hostOps0_3, hostOps0_2, hostOps0_1, hostOps0]
  after_results_simp

theorem keepA_main_arg2 (V : Valuation τ sig (Elt Ideal)) :
    after hostOps0_4 (after hostOps0_3 (after hostOps0_2 (after hostOps0_1 (after hostOps0 V)))) (Proc.devRef .tc main_arg2) = V (Proc.devRef .tc main_arg2) := by
  simp only [hostOps0_4, hostOps0_3, hostOps0_2, hostOps0_1, hostOps0]
  after_results_simp

theorem keepA_main_arg3 (V : Valuation τ sig (Elt Ideal)) :
    after hostOps0_4 (after hostOps0_3 (after hostOps0_2 (after hostOps0_1 (after hostOps0 V)))) (Proc.devRef .tc main_arg3) = V (Proc.devRef .tc main_arg3) := by
  simp only [hostOps0_4, hostOps0_3, hostOps0_2, hostOps0_1, hostOps0]
  after_results_simp

theorem keepA_main_arg4 (V : Valuation τ sig (Elt Ideal)) :
    after hostOps0_4 (after hostOps0_3 (after hostOps0_2 (after hostOps0_1 (after hostOps0 V)))) (Proc.devRef .tc main_arg4) = V (Proc.devRef .tc main_arg4) := by
  simp only [hostOps0_4, hostOps0_3, hostOps0_2, hostOps0_1, hostOps0]
  after_results_simp

theorem keepA_main_arg5 (V : Valuation τ sig (Elt Ideal)) :
    after hostOps0_4 (after hostOps0_3 (after hostOps0_2 (after hostOps0_1 (after hostOps0 V)))) (Proc.devRef .tc main_arg5) = V (Proc.devRef .tc main_arg5) := by
  simp only [hostOps0_4, hostOps0_3, hostOps0_2, hostOps0_1, hostOps0]
  after_results_simp

theorem keepA_main_arg6 (V : Valuation τ sig (Elt Ideal)) :
    after hostOps0_4 (after hostOps0_3 (after hostOps0_2 (after hostOps0_1 (after hostOps0 V)))) (Proc.devRef .tc main_arg6) = V (Proc.devRef .tc main_arg6) := by
  simp only [hostOps0_4, hostOps0_3, hostOps0_2, hostOps0_1, hostOps0]
  after_results_simp

theorem keepA_main_arg7 (V : Valuation τ sig (Elt Ideal)) :
    after hostOps0_4 (after hostOps0_3 (after hostOps0_2 (after hostOps0_1 (after hostOps0 V)))) (Proc.devRef .tc main_arg7) = V (Proc.devRef .tc main_arg7) := by
  simp only [hostOps0_4, hostOps0_3, hostOps0_2, hostOps0_1, hostOps0]
  after_results_simp

theorem keepA_main_arg8 (V : Valuation τ sig (Elt Ideal)) :
    after hostOps0_4 (after hostOps0_3 (after hostOps0_2 (after hostOps0_1 (after hostOps0 V)))) (Proc.devRef .tc main_arg8) = V (Proc.devRef .tc main_arg8) := by
  simp only [hostOps0_4, hostOps0_3, hostOps0_2, hostOps0_1, hostOps0]
  after_results_simp

theorem keepA_main_arg9 (V : Valuation τ sig (Elt Ideal)) :
    after hostOps0_4 (after hostOps0_3 (after hostOps0_2 (after hostOps0_1 (after hostOps0 V)))) (Proc.devRef .tc main_arg9) = V (Proc.devRef .tc main_arg9) := by
  simp only [hostOps0_4, hostOps0_3, hostOps0_2, hostOps0_1, hostOps0]
  after_results_simp

theorem keepA_main_arg10 (V : Valuation τ sig (Elt Ideal)) :
    after hostOps0_4 (after hostOps0_3 (after hostOps0_2 (after hostOps0_1 (after hostOps0 V)))) (Proc.devRef .tc main_arg10) = V (Proc.devRef .tc main_arg10) := by
  simp only [hostOps0_4, hostOps0_3, hostOps0_2, hostOps0_1, hostOps0]
  after_results_simp

theorem keepA_main_arg11 (V : Valuation τ sig (Elt Ideal)) :
    after hostOps0_4 (after hostOps0_3 (after hostOps0_2 (after hostOps0_1 (after hostOps0 V)))) (Proc.devRef .tc main_arg11) = V (Proc.devRef .tc main_arg11) := by
  simp only [hostOps0_4, hostOps0_3, hostOps0_2, hostOps0_1, hostOps0]
  after_results_simp

theorem keepA_main_arg13 (V : Valuation τ sig (Elt Ideal)) :
    after hostOps0_4 (after hostOps0_3 (after hostOps0_2 (after hostOps0_1 (after hostOps0 V)))) (Proc.devRef .tc main_arg13) = V (Proc.devRef .tc main_arg13) := by
  simp only [hostOps0_4, hostOps0_3, hostOps0_2, hostOps0_1, hostOps0]
  after_results_simp

end Cert.KernelIdeal.StretchKA

end
-- ==== Proof.StretchB.lean ====
/-
  The host part of layer 1, between two kernel regions.

  It gathers the transformed features along the edges, weights them by the normalised edge weights, sums them into
  the edges' targets, adds the bias and cuts negative entries to zero: the reference's own operations, so its result
  is the reference's value of the same name, given that the values it starts from are. A buffer the stretch does not
  write keeps its contents.
-/
import proofs.«153558_j60687887892626_1_alg».proof.Proof.Gen.KernelIdeal.Frame
import proofs.«153558_j60687887892626_1_alg».proof.Proof.Gen.ReferenceIdeal.Read
import proofs.«153558_j60687887892626_1_alg».proof.Proof.Casts
import Idealize.ShloMosaic.Lib.StableHlo.Run
import Idealize.ShloMosaic.PureOps.Ideal

set_option maxRecDepth 16384

noncomputable section

namespace Cert.KernelIdeal.StretchB

open Idealize.ShloMosaic Idealize.ShloMosaic.TcCoe Idealize.SL.Sem Idealize.ShloMosaic.StableHlo
open Cert.KernelIdeal Cert.KernelIdeal.Gen
open Cert.ReferenceIdeal.Read

/-- The layer's host part before the cut at zero: the gathered and weighted messages summed into their target nodes,
    the bias added. -/
theorem segB_pre (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x12 : (⟨S2x3200000, .i32⟩ : BufTy).Contents (Elt Ideal))
    (h34 : V (Proc.devRef .tc main_v34) = val_main_v34 (F := Ideal) x1 x12)
    (h3 : V (Proc.devRef .tc main_v3) = val_main_v3 (F := Ideal) x12)
    (h6 : V (Proc.devRef .tc main_v6) = val_main_v6 (F := Ideal) x12)
    (hw : V (Proc.devRef .tc main_v35) = val_main_v35 (F := Ideal) x0 x2)
    (hb : V (Proc.devRef .tc main_arg3) = x3) :
    after hostOps1 V (Proc.devRef .tc main_v51) = val_main_v51 (F := Ideal) x0 x1 x2 x3 x12 := by
  simp only [hostOps1]
  after_results_simp
  rw [h34, h3, h6, hw, hb]
  rfl

/-- The cut at zero. -/
theorem segB_relu (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x12 : (⟨S2x3200000, .i32⟩ : BufTy).Contents (Elt Ideal))
    (hp : V (Proc.devRef .tc main_v51) = val_main_v51 (F := Ideal) x0 x1 x2 x3 x12) :
    after hostOps1_1 V (Proc.devRef .tc main_v52) = val_main_v52 (F := Ideal) x0 x1 x2 x3 x12 := by
  simp only [hostOps1_1]
  after_results_simp
  simp only [Casts.toBuf_main_call2_cst, Casts.ofBuf_main_call2_cst, Casts.toBuf_main_call2_v0, Casts.ofBuf_main_call2_v0, Casts.toBuf_main_v51, Casts.ofBuf_main_v51, Casts.toBuf_main_v52, Casts.ofBuf_main_v52]
  rw [hp]
  rfl

theorem keepB_main_v3 (V : Valuation τ sig (Elt Ideal)) :
    after hostOps1_1 (after hostOps1 V) (Proc.devRef .tc main_v3) = V (Proc.devRef .tc main_v3) := by
  simp only [hostOps1_1, hostOps1]
  after_results_simp

theorem keepB_main_v6 (V : Valuation τ sig (Elt Ideal)) :
    after hostOps1_1 (after hostOps1 V) (Proc.devRef .tc main_v6) = V (Proc.devRef .tc main_v6) := by
  simp only [hostOps1_1, hostOps1]
  after_results_simp

theorem keepB_main_v34 (V : Valuation τ sig (Elt Ideal)) :
    after hostOps1_1 (after hostOps1 V) (Proc.devRef .tc main_v34) = V (Proc.devRef .tc main_v34) := by
  simp only [hostOps1_1, hostOps1]
  after_results_simp

theorem keepB_main_arg4 (V : Valuation τ sig (Elt Ideal)) :
    after hostOps1_1 (after hostOps1 V) (Proc.devRef .tc main_arg4) = V (Proc.devRef .tc main_arg4) := by
  simp only [hostOps1_1, hostOps1]
  after_results_simp

theorem keepB_main_arg5 (V : Valuation τ sig (Elt Ideal)) :
    after hostOps1_1 (after hostOps1 V) (Proc.devRef .tc main_arg5) = V (Proc.devRef .tc main_arg5) := by
  simp only [hostOps1_1, hostOps1]
  after_results_simp

theorem keepB_main_arg6 (V : Valuation τ sig (Elt Ideal)) :
    after hostOps1_1 (after hostOps1 V) (Proc.devRef .tc main_arg6) = V (Proc.devRef .tc main_arg6) := by
  simp only [hostOps1_1, hostOps1]
  after_results_simp

theorem keepB_main_arg7 (V : Valuation τ sig (Elt Ideal)) :
    after hostOps1_1 (after hostOps1 V) (Proc.devRef .tc main_arg7) = V (Proc.devRef .tc main_arg7) := by
  simp only [hostOps1_1, hostOps1]
  after_results_simp

theorem keepB_main_arg8 (V : Valuation τ sig (Elt Ideal)) :
    after hostOps1_1 (after hostOps1 V) (Proc.devRef .tc main_arg8) = V (Proc.devRef .tc main_arg8) := by
  simp only [hostOps1_1, hostOps1]
  after_results_simp

theorem keepB_main_arg9 (V : Valuation τ sig (Elt Ideal)) :
    after hostOps1_1 (after hostOps1 V) (Proc.devRef .tc main_arg9) = V (Proc.devRef .tc main_arg9) := by
  simp only [hostOps1_1, hostOps1]
  after_results_simp

theorem keepB_main_arg10 (V : Valuation τ sig (Elt Ideal)) :
    after hostOps1_1 (after hostOps1 V) (Proc.devRef .tc main_arg10) = V (Proc.devRef .tc main_arg10) := by
  simp only [hostOps1_1, hostOps1]
  after_results_simp

theorem keepB_main_arg11 (V : Valuation τ sig (Elt Ideal)) :
    after hostOps1_1 (after hostOps1 V) (Proc.devRef .tc main_arg11) = V (Proc.devRef .tc main_arg11) := by
  simp only [hostOps1_1, hostOps1]
  after_results_simp

theorem keepB_main_arg13 (V : Valuation τ sig (Elt Ideal)) :
    after hostOps1_1 (after hostOps1 V) (Proc.devRef .tc main_arg13) = V (Proc.devRef .tc main_arg13) := by
  simp only [hostOps1_1, hostOps1]
  after_results_simp

end Cert.KernelIdeal.StretchB

end
-- ==== Proof.StretchC.lean ====
/-
  The host part of layer 2, between two kernel regions.

  It gathers the transformed features along the edges, weights them by the normalised edge weights, sums them into
  the edges' targets, adds the bias and cuts negative entries to zero: the reference's own operations, so its result
  is the reference's value of the same name, given that the values it starts from are. A buffer the stretch does not
  write keeps its contents.
-/
import proofs.«153558_j60687887892626_1_alg».proof.Proof.Gen.KernelIdeal.Frame
import proofs.«153558_j60687887892626_1_alg».proof.Proof.Gen.ReferenceIdeal.Read
import proofs.«153558_j60687887892626_1_alg».proof.Proof.Casts
import Idealize.ShloMosaic.Lib.StableHlo.Run
import Idealize.ShloMosaic.PureOps.Ideal

set_option maxRecDepth 16384

noncomputable section

namespace Cert.KernelIdeal.StretchC

open Idealize.ShloMosaic Idealize.ShloMosaic.TcCoe Idealize.SL.Sem Idealize.ShloMosaic.StableHlo
open Cert.KernelIdeal Cert.KernelIdeal.Gen
open Cert.ReferenceIdeal.Read

/-- The layer's host part before the cut at zero: the gathered and weighted messages summed into their target nodes,
    the bias added. -/
theorem segC_pre (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x12 : (⟨S2x3200000, .i32⟩ : BufTy).Contents (Elt Ideal))
    (h34 : V (Proc.devRef .tc main_v34) = val_main_v34 (F := Ideal) x1 x12)
    (h3 : V (Proc.devRef .tc main_v3) = val_main_v3 (F := Ideal) x12)
    (h6 : V (Proc.devRef .tc main_v6) = val_main_v6 (F := Ideal) x12)
    (hw : V (Proc.devRef .tc main_v53) = val_main_v53 (F := Ideal) x0 x1 x2 x3 x4 x12)
    (hb : V (Proc.devRef .tc main_arg5) = x5) :
    after hostOps2 V (Proc.devRef .tc main_v69) = val_main_v69 (F := Ideal) x0 x1 x2 x3 x4 x5 x12 := by
  simp only [hostOps2]
  after_results_simp
  rw [h34, h3, h6, hw, hb]
  rfl

/-- The cut at zero. -/
theorem segC_relu (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x12 : (⟨S2x3200000, .i32⟩ : BufTy).Contents (Elt Ideal))
    (hp : V (Proc.devRef .tc main_v69) = val_main_v69 (F := Ideal) x0 x1 x2 x3 x4 x5 x12) :
    after hostOps2_1 V (Proc.devRef .tc main_v70) = val_main_v70 (F := Ideal) x0 x1 x2 x3 x4 x5 x12 := by
  simp only [hostOps2_1]
  after_results_simp
  simp only [Casts.toBuf_main_call3_cst, Casts.ofBuf_main_call3_cst, Casts.toBuf_main_call3_v0, Casts.ofBuf_main_call3_v0, Casts.toBuf_main_v69, Casts.ofBuf_main_v69, Casts.toBuf_main_v70, Casts.ofBuf_main_v70]
  rw [hp]
  rfl

theorem keepC_main_v3 (V : Valuation τ sig (Elt Ideal)) :
    after hostOps2_1 (after hostOps2 V) (Proc.devRef .tc main_v3) = V (Proc.devRef .tc main_v3) := by
  simp only [hostOps2_1, hostOps2]
  after_results_simp

theorem keepC_main_v6 (V : Valuation τ sig (Elt Ideal)) :
    after hostOps2_1 (after hostOps2 V) (Proc.devRef .tc main_v6) = V (Proc.devRef .tc main_v6) := by
  simp only [hostOps2_1, hostOps2]
  after_results_simp

theorem keepC_main_v34 (V : Valuation τ sig (Elt Ideal)) :
    after hostOps2_1 (after hostOps2 V) (Proc.devRef .tc main_v34) = V (Proc.devRef .tc main_v34) := by
  simp only [hostOps2_1, hostOps2]
  after_results_simp

theorem keepC_main_arg6 (V : Valuation τ sig (Elt Ideal)) :
    after hostOps2_1 (after hostOps2 V) (Proc.devRef .tc main_arg6) = V (Proc.devRef .tc main_arg6) := by
  simp only [hostOps2_1, hostOps2]
  after_results_simp

theorem keepC_main_arg7 (V : Valuation τ sig (Elt Ideal)) :
    after hostOps2_1 (after hostOps2 V) (Proc.devRef .tc main_arg7) = V (Proc.devRef .tc main_arg7) := by
  simp only [hostOps2_1, hostOps2]
  after_results_simp

theorem keepC_main_arg8 (V : Valuation τ sig (Elt Ideal)) :
    after hostOps2_1 (after hostOps2 V) (Proc.devRef .tc main_arg8) = V (Proc.devRef .tc main_arg8) := by
  simp only [hostOps2_1, hostOps2]
  after_results_simp

theorem keepC_main_arg9 (V : Valuation τ sig (Elt Ideal)) :
    after hostOps2_1 (after hostOps2 V) (Proc.devRef .tc main_arg9) = V (Proc.devRef .tc main_arg9) := by
  simp only [hostOps2_1, hostOps2]
  after_results_simp

theorem keepC_main_arg10 (V : Valuation τ sig (Elt Ideal)) :
    after hostOps2_1 (after hostOps2 V) (Proc.devRef .tc main_arg10) = V (Proc.devRef .tc main_arg10) := by
  simp only [hostOps2_1, hostOps2]
  after_results_simp

theorem keepC_main_arg11 (V : Valuation τ sig (Elt Ideal)) :
    after hostOps2_1 (after hostOps2 V) (Proc.devRef .tc main_arg11) = V (Proc.devRef .tc main_arg11) := by
  simp only [hostOps2_1, hostOps2]
  after_results_simp

theorem keepC_main_arg13 (V : Valuation τ sig (Elt Ideal)) :
    after hostOps2_1 (after hostOps2 V) (Proc.devRef .tc main_arg13) = V (Proc.devRef .tc main_arg13) := by
  simp only [hostOps2_1, hostOps2]
  after_results_simp

end Cert.KernelIdeal.StretchC

end
-- ==== Proof.StretchD.lean ====
/-
  The host part of layer 3, between two kernel regions.

  It gathers the transformed features along the edges, weights them by the normalised edge weights, sums them into
  the edges' targets, adds the bias and cuts negative entries to zero: the reference's own operations, so its result
  is the reference's value of the same name, given that the values it starts from are. A buffer the stretch does not
  write keeps its contents.
-/
import proofs.«153558_j60687887892626_1_alg».proof.Proof.Gen.KernelIdeal.Frame
import proofs.«153558_j60687887892626_1_alg».proof.Proof.Gen.ReferenceIdeal.Read
import proofs.«153558_j60687887892626_1_alg».proof.Proof.Casts
import Idealize.ShloMosaic.Lib.StableHlo.Run
import Idealize.ShloMosaic.PureOps.Ideal

set_option maxRecDepth 16384

noncomputable section

namespace Cert.KernelIdeal.StretchD

open Idealize.ShloMosaic Idealize.ShloMosaic.TcCoe Idealize.SL.Sem Idealize.ShloMosaic.StableHlo
open Cert.KernelIdeal Cert.KernelIdeal.Gen
open Cert.ReferenceIdeal.Read

/-- The layer's host part before the cut at zero: the gathered and weighted messages summed into their target nodes,
    the bias added. -/
theorem segD_pre (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S2x3200000, .i32⟩ : BufTy).Contents (Elt Ideal))
    (h34 : V (Proc.devRef .tc main_v34) = val_main_v34 (F := Ideal) x1 x12)
    (h3 : V (Proc.devRef .tc main_v3) = val_main_v3 (F := Ideal) x12)
    (h6 : V (Proc.devRef .tc main_v6) = val_main_v6 (F := Ideal) x12)
    (hw : V (Proc.devRef .tc main_v71) = val_main_v71 (F := Ideal) x0 x1 x2 x3 x4 x5 x6 x12)
    (hb : V (Proc.devRef .tc main_arg7) = x7) :
    after hostOps3 V (Proc.devRef .tc main_v87) = val_main_v87 (F := Ideal) x0 x1 x2 x3 x4 x5 x6 x7 x12 := by
  simp only [hostOps3]
  after_results_simp
  rw [h34, h3, h6, hw, hb]
  rfl

/-- The cut at zero. -/
theorem segD_relu (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S2x3200000, .i32⟩ : BufTy).Contents (Elt Ideal))
    (hp : V (Proc.devRef .tc main_v87) = val_main_v87 (F := Ideal) x0 x1 x2 x3 x4 x5 x6 x7 x12) :
    after hostOps3_1 V (Proc.devRef .tc main_v88) = val_main_v88 (F := Ideal) x0 x1 x2 x3 x4 x5 x6 x7 x12 := by
  simp only [hostOps3_1]
  after_results_simp
  simp only [Casts.toBuf_main_call4_cst, Casts.ofBuf_main_call4_cst, Casts.toBuf_main_call4_v0, Casts.ofBuf_main_call4_v0, Casts.toBuf_main_v87, Casts.ofBuf_main_v87, Casts.toBuf_main_v88, Casts.ofBuf_main_v88]
  rw [hp]
  rfl

theorem keepD_main_v3 (V : Valuation τ sig (Elt Ideal)) :
    after hostOps3_1 (after hostOps3 V) (Proc.devRef .tc main_v3) = V (Proc.devRef .tc main_v3) := by
  simp only [hostOps3_1, hostOps3]
  after_results_simp

theorem keepD_main_v6 (V : Valuation τ sig (Elt Ideal)) :
    after hostOps3_1 (after hostOps3 V) (Proc.devRef .tc main_v6) = V (Proc.devRef .tc main_v6) := by
  simp only [hostOps3_1, hostOps3]
  after_results_simp

theorem keepD_main_v34 (V : Valuation τ sig (Elt Ideal)) :
    after hostOps3_1 (after hostOps3 V) (Proc.devRef .tc main_v34) = V (Proc.devRef .tc main_v34) := by
  simp only [hostOps3_1, hostOps3]
  after_results_simp

theorem keepD_main_arg8 (V : Valuation τ sig (Elt Ideal)) :
    after hostOps3_1 (after hostOps3 V) (Proc.devRef .tc main_arg8) = V (Proc.devRef .tc main_arg8) := by
  simp only [hostOps3_1, hostOps3]
  after_results_simp

theorem keepD_main_arg9 (V : Valuation τ sig (Elt Ideal)) :
    after hostOps3_1 (after hostOps3 V) (Proc.devRef .tc main_arg9) = V (Proc.devRef .tc main_arg9) := by
  simp only [hostOps3_1, hostOps3]
  after_results_simp

theorem keepD_main_arg10 (V : Valuation τ sig (Elt Ideal)) :
    after hostOps3_1 (after hostOps3 V) (Proc.devRef .tc main_arg10) = V (Proc.devRef .tc main_arg10) := by
  simp only [hostOps3_1, hostOps3]
  after_results_simp

theorem keepD_main_arg11 (V : Valuation τ sig (Elt Ideal)) :
    after hostOps3_1 (after hostOps3 V) (Proc.devRef .tc main_arg11) = V (Proc.devRef .tc main_arg11) := by
  simp only [hostOps3_1, hostOps3]
  after_results_simp

theorem keepD_main_arg13 (V : Valuation τ sig (Elt Ideal)) :
    after hostOps3_1 (after hostOps3 V) (Proc.devRef .tc main_arg13) = V (Proc.devRef .tc main_arg13) := by
  simp only [hostOps3_1, hostOps3]
  after_results_simp

end Cert.KernelIdeal.StretchD

end
-- ==== Proof.StretchE.lean ====
/-
  The host part of layer 4, between two kernel regions.

  It gathers the transformed features along the edges, weights them by the normalised edge weights, sums them into
  the edges' targets, adds the bias and cuts negative entries to zero: the reference's own operations, so its result
  is the reference's value of the same name, given that the values it starts from are. A buffer the stretch does not
  write keeps its contents.
-/
import proofs.«153558_j60687887892626_1_alg».proof.Proof.Gen.KernelIdeal.Frame
import proofs.«153558_j60687887892626_1_alg».proof.Proof.Gen.ReferenceIdeal.Read
import proofs.«153558_j60687887892626_1_alg».proof.Proof.Casts
import Idealize.ShloMosaic.Lib.StableHlo.Run
import Idealize.ShloMosaic.PureOps.Ideal

set_option maxRecDepth 16384

noncomputable section

namespace Cert.KernelIdeal.StretchE

open Idealize.ShloMosaic Idealize.ShloMosaic.TcCoe Idealize.SL.Sem Idealize.ShloMosaic.StableHlo
open Cert.KernelIdeal Cert.KernelIdeal.Gen
open Cert.ReferenceIdeal.Read

/-- The layer's host part before the cut at zero: the gathered and weighted messages summed into their target nodes,
    the bias added. -/
theorem segE_pre (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x12 : (⟨S2x3200000, .i32⟩ : BufTy).Contents (Elt Ideal))
    (h34 : V (Proc.devRef .tc main_v34) = val_main_v34 (F := Ideal) x1 x12)
    (h3 : V (Proc.devRef .tc main_v3) = val_main_v3 (F := Ideal) x12)
    (h6 : V (Proc.devRef .tc main_v6) = val_main_v6 (F := Ideal) x12)
    (hw : V (Proc.devRef .tc main_v89) = val_main_v89 (F := Ideal) x0 x1 x2 x3 x4 x5 x6 x7 x8 x12)
    (hb : V (Proc.devRef .tc main_arg9) = x9) :
    after hostOps4 V (Proc.devRef .tc main_v105) = val_main_v105 (F := Ideal) x0 x1 x2 x3 x4 x5 x6 x7 x8 x9 x12 := by
  simp only [hostOps4]
  after_results_simp
  rw [h34, h3, h6, hw, hb]
  rfl

/-- The cut at zero. -/
theorem segE_relu (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x12 : (⟨S2x3200000, .i32⟩ : BufTy).Contents (Elt Ideal))
    (hp : V (Proc.devRef .tc main_v105) = val_main_v105 (F := Ideal) x0 x1 x2 x3 x4 x5 x6 x7 x8 x9 x12) :
    after hostOps4_1 V (Proc.devRef .tc main_v106) = val_main_v106 (F := Ideal) x0 x1 x2 x3 x4 x5 x6 x7 x8 x9 x12 := by
  simp only [hostOps4_1]
  after_results_simp
  simp only [Casts.toBuf_main_call5_cst, Casts.ofBuf_main_call5_cst, Casts.toBuf_main_call5_v0, Casts.ofBuf_main_call5_v0, Casts.toBuf_main_v105, Casts.ofBuf_main_v105, Casts.toBuf_main_v106, Casts.ofBuf_main_v106]
  rw [hp]
  rfl

theorem keepE_main_v3 (V : Valuation τ sig (Elt Ideal)) :
    after hostOps4_1 (after hostOps4 V) (Proc.devRef .tc main_v3) = V (Proc.devRef .tc main_v3) := by
  simp only [hostOps4_1, hostOps4]
  after_results_simp

theorem keepE_main_v6 (V : Valuation τ sig (Elt Ideal)) :
    after hostOps4_1 (after hostOps4 V) (Proc.devRef .tc main_v6) = V (Proc.devRef .tc main_v6) := by
  simp only [hostOps4_1, hostOps4]
  after_results_simp

theorem keepE_main_v34 (V : Valuation τ sig (Elt Ideal)) :
    after hostOps4_1 (after hostOps4 V) (Proc.devRef .tc main_v34) = V (Proc.devRef .tc main_v34) := by
  simp only [hostOps4_1, hostOps4]
  after_results_simp

theorem keepE_main_arg10 (V : Valuation τ sig (Elt Ideal)) :
    after hostOps4_1 (after hostOps4 V) (Proc.devRef .tc main_arg10) = V (Proc.devRef .tc main_arg10) := by
  simp only [hostOps4_1, hostOps4]
  after_results_simp

theorem keepE_main_arg11 (V : Valuation τ sig (Elt Ideal)) :
    after hostOps4_1 (after hostOps4 V) (Proc.devRef .tc main_arg11) = V (Proc.devRef .tc main_arg11) := by
  simp only [hostOps4_1, hostOps4]
  after_results_simp

theorem keepE_main_arg13 (V : Valuation τ sig (Elt Ideal)) :
    after hostOps4_1 (after hostOps4 V) (Proc.devRef .tc main_arg13) = V (Proc.devRef .tc main_arg13) := by
  simp only [hostOps4_1, hostOps4]
  after_results_simp

end Cert.KernelIdeal.StretchE

end
-- ==== Proof.StretchTail.lean ====
/-
  The last host stretches of the idealized kernel: the fifth layer's host part, the two label lists padded and turned
  into rows of the node embeddings, and, after the last region, the cut back to the labels' number.

  The fifth layer's host part is the earlier layers' without the cut at zero; its result is the node embeddings, the
  reference's value of the same name. Each of the two label lists (the two rows of the label argument) is padded with
  zeros from 1000000 to 1007616 entries, a multiple of the last region's block; a negative entry counts from the
  end; the embeddings' rows the entries name are gathered. After the region the first 1000000 results are kept.
-/
import proofs.«153558_j60687887892626_1_alg».proof.Proof.Gen.KernelIdeal.Frame
import proofs.«153558_j60687887892626_1_alg».proof.Proof.Gen.ReferenceIdeal.Read
import Idealize.ShloMosaic.Lib.StableHlo.Run
import Idealize.ShloMosaic.PureOps.Ideal

set_option maxRecDepth 16384

noncomputable section

namespace Cert.KernelIdeal.StretchTail

open Idealize.ShloMosaic Idealize.ShloMosaic.TcCoe Idealize.SL.Sem Idealize.ShloMosaic.StableHlo
open Cert.KernelIdeal Cert.KernelIdeal.Gen
open Cert.ReferenceIdeal.Read

/-- A label list padded with zeros to 1007616 entries, a negative entry moved up by the number of nodes, as a column
    of start indices for a gather of rows. -/
def padIdx (e : (⟨S1000000, .i32⟩ : BufTy).Contents (Elt Ideal)) : (⟨S1007616x1, .i32⟩ : BufTy).Contents (Elt Ideal) :=
  broadcastInDim S1007616x1 ![0] bcast_S1007616_S1007616x1_0
    (select
      (cmpi .slt (pad S1007616 ![0] ![7616] ![0] e (constantI S_ 32 0#32) pads_S1000000_S1007616_076160 h_S_)
        (broadcastInDim S1007616 ![] bcast_S_S1007616 (constantI S_ 32 0#32)))
      (addi (pad S1007616 ![0] ![7616] ![0] e (constantI S_ 32 0#32) pads_S1000000_S1007616_076160 h_S_)
        (broadcastInDim S1007616 ![] bcast_S_S1007616 (constantI S_ 32 100000#32)))
      (pad S1007616 ![0] ![7616] ![0] e (constantI S_ 32 0#32) pads_S1000000_S1007616_076160 h_S_))

/-- The embeddings' rows the first label list names, the list padded. -/
theorem segF_v136 (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S2x3200000, .i32⟩ : BufTy).Contents (Elt Ideal)) (x13 : (⟨S2x1000000, .i32⟩ : BufTy).Contents (Elt Ideal))
    (h34 : V (Proc.devRef .tc main_v34) = val_main_v34 (F := Ideal) x1 x12)
    (h3 : V (Proc.devRef .tc main_v3) = val_main_v3 (F := Ideal) x12)
    (h6 : V (Proc.devRef .tc main_v6) = val_main_v6 (F := Ideal) x12)
    (hw : V (Proc.devRef .tc main_v107) = val_main_v107 (F := Ideal) x0 x1 x2 x3 x4 x5 x6 x7 x8 x9 x10 x12)
    (hb : V (Proc.devRef .tc main_arg11) = x11)
    (hl : V (Proc.devRef .tc main_arg13) = x13) :
    after hostOps5_4 (after hostOps5_3 (after hostOps5_2 (after hostOps5_1 (after hostOps5 V)))) (Proc.devRef .tc main_v136)
      = Host.gather gather_S100000x64_S1007616x1_S1007616x64_1_0_n_n_0_1_164 (val_main_v123 (F := Ideal) x0 x1 x2 x3 x4 x5 x6 x7 x8 x9 x10 x11 x12) (padIdx (val_main_v125 (F := Ideal) x13)) := by
  simp only [hostOps5_4, hostOps5_3, hostOps5_2, hostOps5_1, hostOps5]
  after_results_simp
  rw [h34, h3, h6, hw, hb, hl]
  rfl

/-- The embeddings' rows the second label list names, the list padded. -/
theorem segF_v143 (V : Valuation τ sig (Elt Ideal)) (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S2x3200000, .i32⟩ : BufTy).Contents (Elt Ideal)) (x13 : (⟨S2x1000000, .i32⟩ : BufTy).Contents (Elt Ideal))
    (h34 : V (Proc.devRef .tc main_v34) = val_main_v34 (F := Ideal) x1 x12)
    (h3 : V (Proc.devRef .tc main_v3) = val_main_v3 (F := Ideal) x12)
    (h6 : V (Proc.devRef .tc main_v6) = val_main_v6 (F := Ideal) x12)
    (hw : V (Proc.devRef .tc main_v107) = val_main_v107 (F := Ideal) x0 x1 x2 x3 x4 x5 x6 x7 x8 x9 x10 x12)
    (hb : V (Proc.devRef .tc main_arg11) = x11)
    (hl : V (Proc.devRef .tc main_arg13) = x13) :
    after hostOps5_4 (after hostOps5_3 (after hostOps5_2 (after hostOps5_1 (after hostOps5 V)))) (Proc.devRef .tc main_v143)
      = Host.gather gather_S100000x64_S1007616x1_S1007616x64_1_0_n_n_0_1_164 (val_main_v123 (F := Ideal) x0 x1 x2 x3 x4 x5 x6 x7 x8 x9 x10 x11 x12) (padIdx (val_main_v134 (F := Ideal) x13)) := by
  simp only [hostOps5_4, hostOps5_3, hostOps5_2, hostOps5_1, hostOps5]
  after_results_simp
  rw [h34, h3, h6, hw, hb, hl]
  rfl

/-- After the last region: the first 1000000 of the region's 1007616 results. -/
theorem segG_v145 (V : Valuation τ sig (Elt Ideal)) :
    after hostOps6 V (Proc.devRef .tc main_v145) = extractStridedSlice S1000000 ![0] (V (Proc.devRef .tc main_v144)) slices_S1007616_S1000000_0 := by
  simp only [hostOps6]
  after_results_simp <;> rfl

end Cert.KernelIdeal.StretchTail

end
-- ==== Proof.Lin0.lean ====
/-
  Region 0: the first layer's feature transform, the node features times the first weight.

  The region runs over ten grid points. Point t loads rows 10000·t … 10000·t + 9999 of the 100000 × 32 input and the whole
  32 × 64 weight, multiplies them on the matrix unit into a zero accumulator (the operands are first rounded to
  bf16, which at the extended reals changes nothing), and writes the 10000 × 64 product back to the same rows of the
  output. Row r of the block at point t is row 10000·t + r of the input, so the block written back is the same rows
  of the whole matrix product; the ten blocks tile the 100000 rows, so the output array ends as the whole product.
-/
import proofs.«153558_j60687887892626_1_alg».proof.Proof.Gen.KernelIdeal.Frame
import proofs.«153558_j60687887892626_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin0

open Idealize.ShloMosaic Idealize.ShloMosaic.TcCoe Idealize.ShloMosaic.ValueIdx Idealize.SL.Sem
open Idealize.ShloMosaic.Pipeline (Dat)
open Cert.KernelIdeal Cert.KernelIdeal.Gen

/-- The block's product at (r, c): the sum over k of the input block at (r, k) times the weight at (k, c). -/
theorem pay_apply (x0 : Vec Ideal S10000x32 .f32) (x1 : Vec Ideal S32x64 .f32) (r : Fin 10000) (q : Fin 64) :
    k0_pay1 (F := Ideal) x0 x1 (ix2 r q) = ∑ k : Fin 32, x0 (ix2 r k) * x1 (ix2 k q) :=
  Cert.Proof.PlainDot.matmul_plain_zero (M := 10000) (K := 32) (N := 64) none x0 x1 (ix2 r q)

theorem hz : (![0, 0] : Fin 2 → Nat) = fun _ => 0 := funext fun a => by fin_cases a <;> rfl

/-- The printed index maps over the grid: the input and the output move along the rows with the point, the
    weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushed_eq (c : Dev nD) (t : Fin cfg0.N) :
    (dat0 V c).flushed 2 t = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero hz]
  simp only [View.ld_unit_zero (S := S10000x32) hz, View.ld_unit_zero (S := S32x64) hz]
  obtain ⟨e0, e1, e2, e3, e4, e5⟩ := idx_facts t
  funext j
  obtain ⟨r, q, rfl⟩ : ∃ (r : Fin 10000) (q : Fin 64), j = ix2 r q := ⟨j 0, j 1, eq_ix2 j⟩
  refine (pay_apply (iblk0 V c 0 t) (iblk0 V c 1 t) r q).trans ?_
  show (∑ k : Fin 32, @HMul.hMul EReal EReal EReal _ (iblk0 V c 0 t (ix2 r k)) (iblk0 V c 1 t (ix2 k q)))
    = ∑ k : Fin 32, @HMul.hMul EReal EReal EReal _ (V c main_arg0 (ix2 ((((cfg0.win 2).blk t).view.emb (ix2 r q)) 0) k)) (V c main_arg2 (ix2 k ((((cfg0.win 2).blk t).view.emb (ix2 r q)) 1)))
  refine Finset.sum_congr rfl fun k _ => ?_
  show @HMul.hMul EReal EReal EReal _ (V c main_arg0 (((cfg0.win 0).blk t).view.emb (ix2 r k))) (V c main_arg2 (((cfg0.win 1).blk t).view.emb (ix2 k q)))
    = @HMul.hMul EReal EReal EReal _ (V c main_arg0 (ix2 ((((cfg0.win 2).blk t).view.emb (ix2 r q)) 0) k)) (V c main_arg2 (ix2 k ((((cfg0.win 2).blk t).view.emb (ix2 r q)) 1)))
  have h0 : ((cfg0.win 0).blk t).view.emb (ix2 r k) = ix2 ((((cfg0.win 2).blk t).view.emb (ix2 r q)) 0) k := by
    funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 32 + 1 * k.val = k.val; omega
  have h1 : ((cfg0.win 1).blk t).view.emb (ix2 k q) = ix2 k ((((cfg0.win 2).blk t).view.emb (ix2 r q)) 1) := by
    funext a; apply Fin.ext
    match a with
    | ⟨0, _⟩ => show win0_1.index t (0 : Fin 2) * 32 + 1 * k.val = k.val; omega
    | ⟨1, _⟩ => show win0_1.index t (1 : Fin 2) * 64 + 1 * q.val = win0_2.index t (1 : Fin 2) * 64 + 1 * q.val; omega
  rw [h0, h1]
  rfl

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Every row of the output lies in the block of the point its row number divided by 10000 names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx_facts t
  have e4' : win0_2.index t (0 : Fin 2) = (i 0).val / 10000 := e4
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the whole matrix product of the two arrays the region finds. -/
theorem final (c : Dev nD) : (dat0 V c).arrAt 2 cfg0.N = Cert.Spec.mm (V c main_arg0) (V c main_arg2) :=
  (dat0 V c).arrAt_eq_of_cover 2 (Cert.Spec.mm (V c main_arg0) (V c main_arg2)) (fun t _ => flushed_eq V c t) cover

end Cert.KernelIdeal.Lin0

end
-- ==== Proof.Lin1.lean ====
/-
  Region 1: the second layer's feature transform, the first hidden features times the second weight.

  The region runs over ten grid points. Point t loads rows 10000·t … 10000·t + 9999 of the 100000 × 64 input and the whole
  64 × 64 weight, multiplies them on the matrix unit into a zero accumulator (the operands are first rounded to
  bf16, which at the extended reals changes nothing), and writes the 10000 × 64 product back to the same rows of the
  output. Row r of the block at point t is row 10000·t + r of the input, so the block written back is the same rows
  of the whole matrix product; the ten blocks tile the 100000 rows, so the output array ends as the whole product.
-/
import proofs.«153558_j60687887892626_1_alg».proof.Proof.Gen.KernelIdeal.Frame
import proofs.«153558_j60687887892626_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin1

open Idealize.ShloMosaic Idealize.ShloMosaic.TcCoe Idealize.ShloMosaic.ValueIdx Idealize.SL.Sem
open Idealize.ShloMosaic.Pipeline (Dat)
open Cert.KernelIdeal Cert.KernelIdeal.Gen

/-- The block's product at (r, c): the sum over k of the input block at (r, k) times the weight at (k, c). -/
theorem pay_apply (x0 : Vec Ideal S10000x64 .f32) (x1 : Vec Ideal S64x64 .f32) (r : Fin 10000) (q : Fin 64) :
    k1_pay1 (F := Ideal) x0 x1 (ix2 r q) = ∑ k : Fin 64, x0 (ix2 r k) * x1 (ix2 k q) := by
  have e : shapeCast S10000x64 x0 shapeCasts_S10000x64_S10000x64 = x0 := shapeCast_self x0 _
  unfold k1_pay1
  simp only [e]
  exact Cert.Proof.PlainDot.matmul_plain_zero (M := 10000) (K := 64) (N := 64) none x0 x1 (ix2 r q)

theorem hz : (![0, 0] : Fin 2 → Nat) = fun _ => 0 := funext fun a => by fin_cases a <;> rfl

/-- The printed index maps over the grid: the input and the output move along the rows with the point, the
    weight stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the arrays the region finds. -/
theorem flushed_eq (c : Dev nD) (t : Fin cfg1.N) :
    (dat1 V c).flushed 2 t = ((cfg1.win 2).blk t).view.read (Elt Ideal) (Cert.Spec.mm (V c main_v52) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e0, e1, e2, e3, e4, e5⟩ := idx_facts t
  funext j
  obtain ⟨r, q, rfl⟩ : ∃ (r : Fin 10000) (q : Fin 64), j = ix2 r q := ⟨j 0, j 1, eq_ix2 j⟩
  refine (pay_apply (iblk1 V c 0 t) (iblk1 V c 1 t) r q).trans ?_
  show (∑ k : Fin 64, @HMul.hMul EReal EReal EReal _ (iblk1 V c 0 t (ix2 r k)) (iblk1 V c 1 t (ix2 k q)))
    = ∑ k : Fin 64, @HMul.hMul EReal EReal EReal _ (V c main_v52 (ix2 ((((cfg1.win 2).blk t).view.emb (ix2 r q)) 0) k)) (V c main_arg4 (ix2 k ((((cfg1.win 2).blk t).view.emb (ix2 r q)) 1)))
  refine Finset.sum_congr rfl fun k _ => ?_
  show @HMul.hMul EReal EReal EReal _ (V c main_v52 (((cfg1.win 0).blk t).view.emb (ix2 r k))) (V c main_arg4 (((cfg1.win 1).blk t).view.emb (ix2 k q)))
    = @HMul.hMul EReal EReal EReal _ (V c main_v52 (ix2 ((((cfg1.win 2).blk t).view.emb (ix2 r q)) 0) k)) (V c main_arg4 (ix2 k ((((cfg1.win 2).blk t).view.emb (ix2 r q)) 1)))
  have h0 : ((cfg1.win 0).blk t).view.emb (ix2 r k) = ix2 ((((cfg1.win 2).blk t).view.emb (ix2 r q)) 0) k := by
    funext a; apply Fin.ext
    match a with
    | ⟨0, _⟩ => show win1_0.index t (0 : Fin 2) * 10000 + 1 * r.val = win1_2.index t (0 : Fin 2) * 10000 + 1 * r.val; omega
    | ⟨1, _⟩ => show win1_0.index t (1 : Fin 2) * 64 + 1 * k.val = k.val; omega
  have h1 : ((cfg1.win 1).blk t).view.emb (ix2 k q) = ix2 k ((((cfg1.win 2).blk t).view.emb (ix2 r q)) 1) := by
    funext a; apply Fin.ext
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega
  rw [h0, h1]
  rfl

/-- An index of the output array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Every row of the output lies in the block of the point its row number divided by 10000 names. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the whole matrix product of the two arrays the region finds. -/
theorem final (c : Dev nD) : (dat1 V c).arrAt 2 cfg1.N = Cert.Spec.mm (V c main_v52) (V c main_arg4) :=
  (dat1 V c).arrAt_eq_of_cover 2 (Cert.Spec.mm (V c main_v52) (V c main_arg4)) (fun t _ => flushed_eq V c t) cover

end Cert.KernelIdeal.Lin1

end
-- ==== Proof.Lin2.lean ====
/-
  Region 2: the third layer's feature transform, the second hidden features times the third weight.

  The region runs over ten grid points. Point t loads rows 10000·t … 10000·t + 9999 of the 100000 × 64 input and the whole
  64 × 64 weight, multiplies them on the matrix unit into a zero accumulator (the operands are first rounded to
  bf16, which at the extended reals changes nothing), and writes the 10000 × 64 product back to the same rows of the
  output. Row r of the block at point t is row 10000·t + r of the input, so the block written back is the same rows
  of the whole matrix product; the ten blocks tile the 100000 rows, so the output array ends as the whole product.
-/
import proofs.«153558_j60687887892626_1_alg».proof.Proof.Gen.KernelIdeal.Frame
import proofs.«153558_j60687887892626_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin2

open Idealize.ShloMosaic Idealize.ShloMosaic.TcCoe Idealize.ShloMosaic.ValueIdx Idealize.SL.Sem
open Idealize.ShloMosaic.Pipeline (Dat)
open Cert.KernelIdeal Cert.KernelIdeal.Gen

/-- The block's product at (r, c): the sum over k of the input block at (r, k) times the weight at (k, c). -/
theorem pay_apply (x0 : Vec Ideal S10000x64 .f32) (x1 : Vec Ideal S64x64 .f32) (r : Fin 10000) (q : Fin 64) :
    k2_pay1 (F := Ideal) x0 x1 (ix2 r q) = ∑ k : Fin 64, x0 (ix2 r k) * x1 (ix2 k q) := by
  have e : shapeCast S10000x64 x0 shapeCasts_S10000x64_S10000x64 = x0 := shapeCast_self x0 _
  unfold k2_pay1
  simp only [e]
  exact Cert.Proof.PlainDot.matmul_plain_zero (M := 10000) (K := 64) (N := 64) none x0 x1 (ix2 r q)

theorem hz : (![0, 0] : Fin 2 → Nat) = fun _ => 0 := funext fun a => by fin_cases a <;> rfl

/-- The printed index maps over the grid: the input and the output move along the rows with the point, the
    weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole product of the arrays the region finds. -/
theorem flushed_eq (c : Dev nD) (t : Fin cfg2.N) :
    (dat2 V c).flushed 2 t = ((cfg2.win 2).blk t).view.read (Elt Ideal) (Cert.Spec.mm (V c main_v70) (V c main_arg6)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨r, q, rfl⟩ : ∃ (r : Fin 10000) (q : Fin 64), j = ix2 r q := ⟨j 0, j 1, eq_ix2 j⟩
  refine (pay_apply (iblk2 V c 0 t) (iblk2 V c 1 t) r q).trans ?_
  show (∑ k : Fin 64, @HMul.hMul EReal EReal EReal _ (iblk2 V c 0 t (ix2 r k)) (iblk2 V c 1 t (ix2 k q)))
    = ∑ k : Fin 64, @HMul.hMul EReal EReal EReal _ (V c main_v70 (ix2 ((((cfg2.win 2).blk t).view.emb (ix2 r q)) 0) k)) (V c main_arg6 (ix2 k ((((cfg2.win 2).blk t).view.emb (ix2 r q)) 1)))
  refine Finset.sum_congr rfl fun k _ => ?_
  show @HMul.hMul EReal EReal EReal _ (V c main_v70 (((cfg2.win 0).blk t).view.emb (ix2 r k))) (V c main_arg6 (((cfg2.win 1).blk t).view.emb (ix2 k q)))
    = @HMul.hMul EReal EReal EReal _ (V c main_v70 (ix2 ((((cfg2.win 2).blk t).view.emb (ix2 r q)) 0) k)) (V c main_arg6 (ix2 k ((((cfg2.win 2).blk t).view.emb (ix2 r q)) 1)))
  have h0 : ((cfg2.win 0).blk t).view.emb (ix2 r k) = ix2 ((((cfg2.win 2).blk t).view.emb (ix2 r q)) 0) k := by
    funext a; apply Fin.ext
    match a with
    | ⟨0, _⟩ => show win2_0.index t (0 : Fin 2) * 10000 + 1 * r.val = win2_2.index t (0 : Fin 2) * 10000 + 1 * r.val; omega
    | ⟨1, _⟩ => show win2_0.index t (1 : Fin 2) * 64 + 1 * k.val = k.val; omega
  have h1 : ((cfg2.win 1).blk t).view.emb (ix2 k q) = ix2 k ((((cfg2.win 2).blk t).view.emb (ix2 r q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [h0, h1]
  rfl

/-- An index of the output array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v71).slice (win2_2.rect t)).set ↔ _
  rw [View.set_slice_whole, Rect.mem_set_unit]
  exact Iff.rfl

/-- Every row of the output lies in the block of the point its row number divided by 10000 names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5⟩ := idx_facts t
  have e4' : win2_2.index t (0 : Fin 2) = (i 0).val / 10000 := e4
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: the whole matrix product of the two arrays the region finds. -/
theorem final (c : Dev nD) : (dat2 V c).arrAt 2 cfg2.N = Cert.Spec.mm (V c main_v70) (V c main_arg6) :=
  (dat2 V c).arrAt_eq_of_cover 2 (Cert.Spec.mm (V c main_v70) (V c main_arg6)) (fun t _ => flushed_eq V c t) cover

end Cert.KernelIdeal.Lin2

end
-- ==== Proof.Lin3.lean ====
/-
  Region 3: the fourth layer's feature transform, the third hidden features times the fourth weight.

  The region runs over ten grid points. Point t loads rows 10000·t … 10000·t + 9999 of the 100000 × 64 input and the whole
  64 × 64 weight, multiplies them on the matrix unit into a zero accumulator (the operands are first rounded to
  bf16, which at the extended reals changes nothing), and writes the 10000 × 64 product back to the same rows of the
  output. Row r of the block at point t is row 10000·t + r of the input, so the block written back is the same rows
  of the whole matrix product; the ten blocks tile the 100000 rows, so the output array ends as the whole product.
-/
import proofs.«153558_j60687887892626_1_alg».proof.Proof.Gen.KernelIdeal.Frame
import proofs.«153558_j60687887892626_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin3

open Idealize.ShloMosaic Idealize.ShloMosaic.TcCoe Idealize.ShloMosaic.ValueIdx Idealize.SL.Sem
open Idealize.ShloMosaic.Pipeline (Dat)
open Cert.KernelIdeal Cert.KernelIdeal.Gen

/-- The block's product at (r, c): the sum over k of the input block at (r, k) times the weight at (k, c). -/
theorem pay_apply (x0 : Vec Ideal S10000x64 .f32) (x1 : Vec Ideal S64x64 .f32) (r : Fin 10000) (q : Fin 64) :
    k3_pay1 (F := Ideal) x0 x1 (ix2 r q) = ∑ k : Fin 64, x0 (ix2 r k) * x1 (ix2 k q) := by
  have e : shapeCast S10000x64 x0 shapeCasts_S10000x64_S10000x64 = x0 := shapeCast_self x0 _
  unfold k3_pay1
  simp only [e]
  exact Cert.Proof.PlainDot.matmul_plain_zero (M := 10000) (K := 64) (N := 64) none x0 x1 (ix2 r q)

theorem hz : (![0, 0] : Fin 2 → Nat) = fun _ => 0 := funext fun a => by fin_cases a <;> rfl

/-- The printed index maps over the grid: the input and the output move along the rows with the point, the
    weight stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the whole product of the arrays the region finds. -/
theorem flushed_eq (c : Dev nD) (t : Fin cfg3.N) :
    (dat3 V c).flushed 2 t = ((cfg3.win 2).blk t).view.read (Elt Ideal) (Cert.Spec.mm (V c main_v88) (V c main_arg8)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  obtain ⟨e0, e1, e2, e3, e4, e5⟩ := idx_facts t
  funext j
  obtain ⟨r, q, rfl⟩ : ∃ (r : Fin 10000) (q : Fin 64), j = ix2 r q := ⟨j 0, j 1, eq_ix2 j⟩
  refine (pay_apply (iblk3 V c 0 t) (iblk3 V c 1 t) r q).trans ?_
  show (∑ k : Fin 64, @HMul.hMul EReal EReal EReal _ (iblk3 V c 0 t (ix2 r k)) (iblk3 V c 1 t (ix2 k q)))
    = ∑ k : Fin 64, @HMul.hMul EReal EReal EReal _ (V c main_v88 (ix2 ((((cfg3.win 2).blk t).view.emb (ix2 r q)) 0) k)) (V c main_arg8 (ix2 k ((((cfg3.win 2).blk t).view.emb (ix2 r q)) 1)))
  refine Finset.sum_congr rfl fun k _ => ?_
  show @HMul.hMul EReal EReal EReal _ (V c main_v88 (((cfg3.win 0).blk t).view.emb (ix2 r k))) (V c main_arg8 (((cfg3.win 1).blk t).view.emb (ix2 k q)))
    = @HMul.hMul EReal EReal EReal _ (V c main_v88 (ix2 ((((cfg3.win 2).blk t).view.emb (ix2 r q)) 0) k)) (V c main_arg8 (ix2 k ((((cfg3.win 2).blk t).view.emb (ix2 r q)) 1)))
  have h0 : ((cfg3.win 0).blk t).view.emb (ix2 r k) = ix2 ((((cfg3.win 2).blk t).view.emb (ix2 r q)) 0) k := by
    funext a; apply Fin.ext
    match a with
    | ⟨0, _⟩ => show win3_0.index t (0 : Fin 2) * 10000 + 1 * r.val = win3_2.index t (0 : Fin 2) * 10000 + 1 * r.val; omega
    | ⟨1, _⟩ => show win3_0.index t (1 : Fin 2) * 64 + 1 * k.val = k.val; omega
  have h1 : ((cfg3.win 1).blk t).view.emb (ix2 k q) = ix2 k ((((cfg3.win 2).blk t).view.emb (ix2 r q)) 1) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  rw [h0, h1]
  rfl

/-- An index of the output array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v89).slice (win3_2.rect t)).set ↔ _
  rw [View.set_slice_whole, Rect.mem_set_unit]
  exact Iff.rfl

/-- Every row of the output lies in the block of the point its row number divided by 10000 names. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5⟩ := idx_facts t
  have e4' : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the whole matrix product of the two arrays the region finds. -/
theorem final (c : Dev nD) : (dat3 V c).arrAt 2 cfg3.N = Cert.Spec.mm (V c main_v88) (V c main_arg8) :=
  (dat3 V c).arrAt_eq_of_cover 2 (Cert.Spec.mm (V c main_v88) (V c main_arg8)) (fun t _ => flushed_eq V c t) cover

end Cert.KernelIdeal.Lin3

end
-- ==== Proof.Lin4.lean ====
/-
  Region 4: the fifth layer's feature transform, the fourth hidden features times the fifth weight.

  The region runs over ten grid points. Point t loads rows 10000·t … 10000·t + 9999 of the 100000 × 64 input and the whole
  64 × 64 weight, multiplies them on the matrix unit into a zero accumulator (the operands are first rounded to
  bf16, which at the extended reals changes nothing), and writes the 10000 × 64 product back to the same rows of the
  output. Row r of the block at point t is row 10000·t + r of the input, so the block written back is the same rows
  of the whole matrix product; the ten blocks tile the 100000 rows, so the output array ends as the whole product.
-/
import proofs.«153558_j60687887892626_1_alg».proof.Proof.Gen.KernelIdeal.Frame
import proofs.«153558_j60687887892626_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Lin4

open Idealize.ShloMosaic Idealize.ShloMosaic.TcCoe Idealize.ShloMosaic.ValueIdx Idealize.SL.Sem
open Idealize.ShloMosaic.Pipeline (Dat)
open Cert.KernelIdeal Cert.KernelIdeal.Gen

/-- The block's product at (r, c): the sum over k of the input block at (r, k) times the weight at (k, c). -/
theorem pay_apply (x0 : Vec Ideal S10000x64 .f32) (x1 : Vec Ideal S64x64 .f32) (r : Fin 10000) (q : Fin 64) :
    k4_pay1 (F := Ideal) x0 x1 (ix2 r q) = ∑ k : Fin 64, x0 (ix2 r k) * x1 (ix2 k q) := by
  have e : shapeCast S10000x64 x0 shapeCasts_S10000x64_S10000x64 = x0 := shapeCast_self x0 _
  unfold k4_pay1
  simp only [e]
  exact Cert.Proof.PlainDot.matmul_plain_zero (M := 10000) (K := 64) (N := 64) none x0 x1 (ix2 r q)

theorem hz : (![0, 0] : Fin 2 → Nat) = fun _ => 0 := funext fun a => by fin_cases a <;> rfl

/-- The printed index maps over the grid: the input and the output move along the rows with the point, the
    weight stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the whole product of the arrays the region finds. -/
theorem flushed_eq (c : Dev nD) (t : Fin cfg4.N) :
    (dat4 V c).flushed 2 t = ((cfg4.win 2).blk t).view.read (Elt Ideal) (Cert.Spec.mm (V c main_v106) (V c main_arg10)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  obtain ⟨e0, e1, e2, e3, e4, e5⟩ := idx_facts t
  funext j
  obtain ⟨r, q, rfl⟩ : ∃ (r : Fin 10000) (q : Fin 64), j = ix2 r q := ⟨j 0, j 1, eq_ix2 j⟩
  refine (pay_apply (iblk4 V c 0 t) (iblk4 V c 1 t) r q).trans ?_
  show (∑ k : Fin 64, @HMul.hMul EReal EReal EReal _ (iblk4 V c 0 t (ix2 r k)) (iblk4 V c 1 t (ix2 k q)))
    = ∑ k : Fin 64, @HMul.hMul EReal EReal EReal _ (V c main_v106 (ix2 ((((cfg4.win 2).blk t).view.emb (ix2 r q)) 0) k)) (V c main_arg10 (ix2 k ((((cfg4.win 2).blk t).view.emb (ix2 r q)) 1)))
  refine Finset.sum_congr rfl fun k _ => ?_
  show @HMul.hMul EReal EReal EReal _ (V c main_v106 (((cfg4.win 0).blk t).view.emb (ix2 r k))) (V c main_arg10 (((cfg4.win 1).blk t).view.emb (ix2 k q)))
    = @HMul.hMul EReal EReal EReal _ (V c main_v106 (ix2 ((((cfg4.win 2).blk t).view.emb (ix2 r q)) 0) k)) (V c main_arg10 (ix2 k ((((cfg4.win 2).blk t).view.emb (ix2 r q)) 1)))
  have h0 : ((cfg4.win 0).blk t).view.emb (ix2 r k) = ix2 ((((cfg4.win 2).blk t).view.emb (ix2 r q)) 0) k := by
    funext a; apply Fin.ext
    match a with
    | ⟨0, _⟩ => show win4_0.index t (0 : Fin 2) * 10000 + 1 * r.val = win4_2.index t (0 : Fin 2) * 10000 + 1 * r.val; omega
    | ⟨1, _⟩ => show win4_0.index t (1 : Fin 2) * 64 + 1 * k.val = k.val; omega
  have h1 : ((cfg4.win 1).blk t).view.emb (ix2 k q) = ix2 k ((((cfg4.win 2).blk t).view.emb (ix2 r q)) 1) := by
    funext a; apply Fin.ext
    match a with
    | ⟨0, _⟩ => show win4_1.index t (0 : Fin 2) * 64 + 1 * k.val = k.val; omega
    | ⟨1, _⟩ => show win4_1.index t (1 : Fin 2) * 64 + 1 * q.val = win4_2.index t (1 : Fin 2) * 64 + 1 * q.val; omega
  rw [h0, h1]
  rfl

/-- An index of the output array is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v107).slice (win4_2.rect t)).set ↔ _
  rw [View.set_slice_whole, Rect.mem_set_unit]
  exact Iff.rfl

/-- Every row of the output lies in the block of the point its row number divided by 10000 names. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨e0, e1, e2, e3, e4, e5⟩ := idx_facts t
  have e4' : win4_2.index t (0 : Fin 2) = (i 0).val / 10000 := e4
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array after the region: the whole matrix product of the two arrays the region finds. -/
theorem final (c : Dev nD) : (dat4 V c).arrAt 2 cfg4.N = Cert.Spec.mm (V c main_v106) (V c main_arg10) :=
  (dat4 V c).arrAt_eq_of_cover 2 (Cert.Spec.mm (V c main_v106) (V c main_arg10)) (fun t _ => flushed_eq V c t) cover

end Cert.KernelIdeal.Lin4

end
-- ==== Proof.Dot5.lean ====
/-
  Region 5: the decode, the inner product of paired rows.

  The region runs over 123 grid points. Point t loads rows 8192·t … 8192·t + 8191 of each of the two 1007616 × 64
  inputs, multiplies them entry by entry, sums each row over its 64 columns from zero, and writes the 8192 sums back
  to the same positions of the output. Entry r of the block at point t is the inner product of rows 8192·t + r of the
  two inputs, so the block written back is the same stretch of the whole row-by-row inner product; the 123 blocks
  tile the 1007616 positions, so the output array ends as the whole row-by-row inner product.
-/
import proofs.«153558_j60687887892626_1_alg».proof.Proof.Gen.KernelIdeal.Frame
import proofs.«153558_j60687887892626_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dot5

open Idealize.ShloMosaic Idealize.ShloMosaic.TcCoe Idealize.ShloMosaic.ValueIdx Idealize.SL.Sem
open Idealize.ShloMosaic.Pipeline (Dat)
open Cert.KernelIdeal Cert.KernelIdeal.Gen

/-- The row sums' index into the product: position k of row r. -/
theorem lift_eq (r : Fin 8192) (k : Fin (S8192x64.size 1)) :
    (reduces_S8192x64_S8192 : S8192x64.Reduces [1] S8192).lift (ix1 r) k = ix2 r k := by
  funext a; apply Fin.ext
  match a with
  | ⟨0, _⟩ => rfl
  | ⟨1, _⟩ => rfl

/-- The block's result at r: the sum over k of the product of the two input blocks at (r, k). -/
theorem pay_apply (x0 x1 : Vec Ideal S8192x64 .f32) (r : Fin 8192) :
    k5_pay1 (F := Ideal) x0 x1 (ix1 r) = ∑ k : Fin 64, x0 (ix2 r k) * x1 (ix2 r k) := by
  unfold k5_pay1
  refine (Ideal.multiReduction_add_single (s := S8192x64) (t := S8192) (a := 1) _ _ reduces_S8192x64_S8192 _ _ (ix1 r)).trans ?_
  refine Finset.sum_congr rfl fun k _ => ?_
  rw [lift_eq, shapeCast_self, shapeCast_self]
  rfl

theorem hz2 : (![0, 0] : Fin 2 → Nat) = fun _ => 0 := funext fun a => by fin_cases a <;> rfl
theorem hz1 : (![0] : Fin 1 → Nat) = fun _ => 0 := funext fun a => by fin_cases a; rfl

/-- The printed index maps over the grid: both inputs and the output move along the rows with the point. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 1) = t.val :=
  (by decide +kernel : ∀ t : Fin grid5.N, _)

variable (V : (c : Dev nD) → (b : Ref sig .tc) → Buf (Elt Ideal) ((c : Thread nD τ).loc b))

/-- What point t writes back is block t of the whole row-by-row inner product of the arrays the region finds. -/
theorem flushed_eq (c : Dev nD) (t : Fin cfg5.N) :
    (dat5 V c).flushed 2 t = ((cfg5.win 2).blk t).view.read (Elt Ideal) (Cert.Spec.rowdot (V c main_v136) (V c main_v143)) := by
  show (cfg5.win 2).cut (grid5.coords t) ((dat5 V c).after 2 t) = _
  rw [after5_2]
  unfold out5_2
  rw [View.canon_unit_zero hz1]
  simp only [View.ld_unit_zero (S := S8192x64) hz2]
  obtain ⟨e0, e1, e2, e3, e4⟩ := idx_facts t
  funext j
  obtain ⟨r, rfl⟩ : ∃ (r : Fin 8192), j = ix1 r := ⟨j 0, eq_ix1 j⟩
  refine (pay_apply (iblk5 V c 0 t) (iblk5 V c 1 t) r).trans ?_
  show (∑ k : Fin 64, @HMul.hMul EReal EReal EReal _ (iblk5 V c 0 t (ix2 r k)) (iblk5 V c 1 t (ix2 r k)))
    = ∑ k : Fin 64, @HMul.hMul EReal EReal EReal _ (V c main_v136 (ix2 ((((cfg5.win 2).blk t).view.emb (ix1 r)) 0) k)) (V c main_v143 (ix2 ((((cfg5.win 2).blk t).view.emb (ix1 r)) 0) k))
  refine Finset.sum_congr rfl fun k _ => ?_
  show @HMul.hMul EReal EReal EReal _ (V c main_v136 (((cfg5.win 0).blk t).view.emb (ix2 r k))) (V c main_v143 (((cfg5.win 1).blk t).view.emb (ix2 r k)))
    = @HMul.hMul EReal EReal EReal _ (V c main_v136 (ix2 ((((cfg5.win 2).blk t).view.emb (ix1 r)) 0) k)) (V c main_v143 (ix2 ((((cfg5.win 2).blk t).view.emb (ix1 r)) 0) k))
  have h0 : ((cfg5.win 0).blk t).view.emb (ix2 r k) = ix2 ((((cfg5.win 2).blk t).view.emb (ix1 r)) 0) k := by
    funext a; apply Fin.ext
    match a with
    | ⟨0, _⟩ => show win5_0.index t (0 : Fin 2) * 8192 + 1 * r.val = win5_2.index t (0 : Fin 1) * 8192 + 1 * r.val; omega
    | ⟨1, _⟩ => show win5_0.index t (1 : Fin 2) * 64 + 1 * k.val = k.val; omega
  have h1 : ((cfg5.win 1).blk t).view.emb (ix2 r k) = ix2 ((((cfg5.win 2).blk t).view.emb (ix1 r)) 0) k := by
    funext a; apply Fin.ext
    match a with
    | ⟨0, _⟩ => show win5_1.index t (0 : Fin 2) * 8192 + 1 * r.val = win5_2.index t (0 : Fin 1) * 8192 + 1 * r.val; omega
    | ⟨1, _⟩ => show win5_1.index t (1 : Fin 2) * 64 + 1 * k.val = k.val; omega
  rw [h0, h1]
  rfl

/-- A position of the output array is in point t's block iff it is in the block's range. -/
theorem mem_blk (t : Fin cfg5.N) (i : S1007616.Idx) :
    i ∈ ((cfg5.win 2).blk t).view.set ↔ ∀ a : Fin 1, win5_2.index t a * S8192.size a ≤ (i a).val ∧ (i a).val < win5_2.index t a * S8192.size a + S8192.size a := by
  show i ∈ ((View.whole main_v144).slice (win5_2.rect t)).set ↔ _
  rw [View.set_slice_whole, Rect.mem_set_unit]
  exact Iff.rfl

/-- Every position of the output lies in the block of the point its number divided by 8192 names. -/
theorem cover (i : S1007616.Idx) : ∃ t : Fin cfg5.N, (cfg5.win 2).flush t = true ∧ i ∈ ((cfg5.win 2).blk t).view.set := by
  have hi0 : (i 0).val < 1007616 := (i 0).isLt
  have hN : cfg5.N = 123 := N_5
  let t : Fin cfg5.N := ⟨(i 0).val / 8192, by rw [hN]; omega⟩
  obtain ⟨e0, e1, e2, e3, e4⟩ := idx_facts t
  have e4' : win5_2.index t (0 : Fin 1) = (i 0).val / 8192 := e4
  refine ⟨t, flush5_2 t, ?_⟩
  rw [mem_blk]
  intro a
  match a with
  | ⟨0, _⟩ => show win5_2.index t (0 : Fin 1) * 8192 ≤ (i 0).val ∧ (i 0).val < win5_2.index t (0 : Fin 1) * 8192 + 8192; omega

/-- The output array after the region: the whole row-by-row inner product of the two arrays the region finds. -/
theorem final (c : Dev nD) : (dat5 V c).arrAt 2 cfg5.N = Cert.Spec.rowdot (V c main_v136) (V c main_v143) :=
  (dat5 V c).arrAt_eq_of_cover 2 (Cert.Spec.rowdot (V c main_v136) (V c main_v143)) (fun t _ => flushed_eq V c t) cover

end Cert.KernelIdeal.Dot5

end
-- ==== Proof.Chain.lean ====
/-
  The idealized kernel's buffers along its run, as functions of its arguments.

  The program's segments are taken in order: the host stretch before the first region, then five times a region (a
  matrix product) and the host part of a layer, the fifth followed by the gathers of the labelled rows, then the
  last region (the row-by-row inner products) and the final cut. At each boundary the buffers still to be read
  hold: the edge endpoint lists and the normalised edge weights, the arguments not yet used, and the current features
  — each the reference's value of the same name at the kernel's arguments, because a region's matrix product is the
  reference's `dot_general` and the host operations are the reference's own.
-/
import proofs.«153558_j60687887892626_1_alg».proof.Proof.Gen.KernelIdeal.Frame
import proofs.«153558_j60687887892626_1_alg».proof.Proof.Gen.ReferenceIdeal.Read
import proofs.«153558_j60687887892626_1_alg».proof.Proof.Spec
import proofs.«153558_j60687887892626_1_alg».proof.Proof.StretchA
import proofs.«153558_j60687887892626_1_alg».proof.Proof.StretchKA
import proofs.«153558_j60687887892626_1_alg».proof.Proof.StretchB
import proofs.«153558_j60687887892626_1_alg».proof.Proof.StretchC
import proofs.«153558_j60687887892626_1_alg».proof.Proof.StretchD
import proofs.«153558_j60687887892626_1_alg».proof.Proof.StretchE
import proofs.«153558_j60687887892626_1_alg».proof.Proof.StretchTail
import proofs.«153558_j60687887892626_1_alg».proof.Proof.Lin0
import proofs.«153558_j60687887892626_1_alg».proof.Proof.Lin1
import proofs.«153558_j60687887892626_1_alg».proof.Proof.Lin2
import proofs.«153558_j60687887892626_1_alg».proof.Proof.Lin3
import proofs.«153558_j60687887892626_1_alg».proof.Proof.Lin4
import proofs.«153558_j60687887892626_1_alg».proof.Proof.Dot5

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Read

/-! ## The reference's `dot_general`s are matrix products -/

theorem val35_eq_mm (x0 : (⟨S100000x32, .f32⟩ : BufTy).Contents (Elt Ideal)) (x2 : (⟨S32x64, .f32⟩ : BufTy).Contents (Elt Ideal)) :
    val_main_v35 (F := Ideal) x0 x2 = Cert.Spec.mm (M := 100000) (K := 32) (N := 64) x0 x2 :=
  Cert.Spec.dotGeneral_eq_mm none x0 x2

theorem val53_eq_mm (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x12 : (⟨S2x3200000, .i32⟩ : BufTy).Contents (Elt Ideal)) :
    val_main_v53 (F := Ideal) x0 x1 x2 x3 x4 x12 = Cert.Spec.mm (M := 100000) (K := 64) (N := 64) (val_main_v52 (F := Ideal) x0 x1 x2 x3 x12) x4 :=
  Cert.Spec.dotGeneral_eq_mm none _ x4

theorem val71_eq_mm (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x12 : (⟨S2x3200000, .i32⟩ : BufTy).Contents (Elt Ideal)) :
    val_main_v71 (F := Ideal) x0 x1 x2 x3 x4 x5 x6 x12 = Cert.Spec.mm (M := 100000) (K := 64) (N := 64) (val_main_v70 (F := Ideal) x0 x1 x2 x3 x4 x5 x12) x6 :=
  Cert.Spec.dotGeneral_eq_mm none _ x6

theorem val89_eq_mm (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x12 : (⟨S2x3200000, .i32⟩ : BufTy).Contents (Elt Ideal)) :
    val_main_v89 (F := Ideal) x0 x1 x2 x3 x4 x5 x6 x7 x8 x12 = Cert.Spec.mm (M := 100000) (K := 64) (N := 64) (val_main_v88 (F := Ideal) x0 x1 x2 x3 x4 x5 x6 x7 x12) x8 :=
  Cert.Spec.dotGeneral_eq_mm none _ x8

theorem val107_eq_mm (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x12 : (⟨S2x3200000, .i32⟩ : BufTy).Contents (Elt Ideal)) :
    val_main_v107 (F := Ideal) x0 x1 x2 x3 x4 x5 x6 x7 x8 x9 x10 x12 = Cert.Spec.mm (M := 100000) (K := 64) (N := 64) (val_main_v106 (F := Ideal) x0 x1 x2 x3 x4 x5 x6 x7 x8 x9 x12) x10 :=
  Cert.Spec.dotGeneral_eq_mm none _ x10

variable (m : (ℓ : Loc nD τ sig) → Buf (Elt Ideal) ℓ) (ρ : Dev nD → PrngReg) (c : Dev nD)

/-! ## Through the stretch before the first region -/

theorem W1_main_v3 : W1 m ρ c (Proc.devRef .tc main_v3) = val_main_v3 (F := Ideal) (m ((c : Thread nD τ).loc main_arg12)) :=
  StretchA.a1_v3 (W0 m ρ c)

theorem W1_main_v6 : W1 m ρ c (Proc.devRef .tc main_v6) = val_main_v6 (F := Ideal) (m ((c : Thread nD τ).loc main_arg12)) :=
  StretchA.a1_v6 (W0 m ρ c)

theorem W1_main_v8 : W1 m ρ c (Proc.devRef .tc main_v8) = val_main_v8 (F := Ideal) (m ((c : Thread nD τ).loc main_arg1)) :=
  StretchA.a1_v8 (W0 m ρ c)

theorem W1_main_v11 : W1 m ρ c (Proc.devRef .tc main_v11) = val_main_v11 (F := Ideal) (m ((c : Thread nD τ).loc main_arg1)) (m ((c : Thread nD τ).loc main_arg12)) :=
  StretchA.a1_v11 (W0 m ρ c)

theorem W1_main_v13 : W1 m ρ c (Proc.devRef .tc main_v13) = val_main_v13 (F := Ideal) (m ((c : Thread nD τ).loc main_arg1)) (m ((c : Thread nD τ).loc main_arg12)) :=
  StretchA.a1_v13 (W0 m ρ c)

theorem W1_main_v15 : W1 m ρ c (Proc.devRef .tc main_v15) = val_main_v15 (F := Ideal) (m ((c : Thread nD τ).loc main_arg1)) (m ((c : Thread nD τ).loc main_arg12)) :=
  StretchA.a1_v15 (W0 m ρ c)

theorem W1_main_cst_3 : W1 m ρ c (Proc.devRef .tc main_cst_3) = val_main_cst_3 (F := Ideal) :=
  StretchA.a1_cst3 (W0 m ρ c)

theorem W2_main_v16 : W2 m ρ c (Proc.devRef .tc main_v16) = val_main_v16 (F := Ideal) (m ((c : Thread nD τ).loc main_arg1)) (m ((c : Thread nD τ).loc main_arg12)) :=
  StretchA.a2_v16 (W1 m ρ c) (m ((c : Thread nD τ).loc main_arg1)) (m ((c : Thread nD τ).loc main_arg12)) (W1_main_v15 m ρ c) (W1_main_v11 m ρ c) (W1_main_cst_3 m ρ c)

theorem W2_main_v3 : W2 m ρ c (Proc.devRef .tc main_v3) = val_main_v3 (F := Ideal) (m ((c : Thread nD τ).loc main_arg12)) :=
  (StretchA.keep2_main_v3 (W1 m ρ c)).trans (W1_main_v3 m ρ c)

theorem W2_main_v6 : W2 m ρ c (Proc.devRef .tc main_v6) = val_main_v6 (F := Ideal) (m ((c : Thread nD τ).loc main_arg12)) :=
  (StretchA.keep2_main_v6 (W1 m ρ c)).trans (W1_main_v6 m ρ c)

theorem W2_main_v8 : W2 m ρ c (Proc.devRef .tc main_v8) = val_main_v8 (F := Ideal) (m ((c : Thread nD τ).loc main_arg1)) :=
  (StretchA.keep2_main_v8 (W1 m ρ c)).trans (W1_main_v8 m ρ c)

theorem W2_main_v13 : W2 m ρ c (Proc.devRef .tc main_v13) = val_main_v13 (F := Ideal) (m ((c : Thread nD τ).loc main_arg1)) (m ((c : Thread nD τ).loc main_arg12)) :=
  (StretchA.keep2_main_v13 (W1 m ρ c)).trans (W1_main_v13 m ρ c)

theorem W3_main_v17 : W3 m ρ c (Proc.devRef .tc main_v17) = val_main_v17 (F := Ideal) (m ((c : Thread nD τ).loc main_arg1)) (m ((c : Thread nD τ).loc main_arg12)) :=
  StretchA.a3_v17 (W2 m ρ c) (m ((c : Thread nD τ).loc main_arg1)) (m ((c : Thread nD τ).loc main_arg12)) (W2_main_v16 m ρ c)

theorem W3_main_cst_4 : W3 m ρ c (Proc.devRef .tc main_cst_4) = val_main_cst_4 (F := Ideal) :=
  StretchA.a3_cst4 (W2 m ρ c)

theorem W3_main_v3 : W3 m ρ c (Proc.devRef .tc main_v3) = val_main_v3 (F := Ideal) (m ((c : Thread nD τ).loc main_arg12)) :=
  (StretchA.keep3_main_v3 (W2 m ρ c)).trans (W2_main_v3 m ρ c)

theorem W3_main_v6 : W3 m ρ c (Proc.devRef .tc main_v6) = val_main_v6 (F := Ideal) (m ((c : Thread nD τ).loc main_arg12)) :=
  (StretchA.keep3_main_v6 (W2 m ρ c)).trans (W2_main_v6 m ρ c)

theorem W3_main_v8 : W3 m ρ c (Proc.devRef .tc main_v8) = val_main_v8 (F := Ideal) (m ((c : Thread nD τ).loc main_arg1)) :=
  (StretchA.keep3_main_v8 (W2 m ρ c)).trans (W2_main_v8 m ρ c)

theorem W3_main_v13 : W3 m ρ c (Proc.devRef .tc main_v13) = val_main_v13 (F := Ideal) (m ((c : Thread nD τ).loc main_arg1)) (m ((c : Thread nD τ).loc main_arg12)) :=
  (StretchA.keep3_main_v13 (W2 m ρ c)).trans (W2_main_v13 m ρ c)

theorem W4_main_v18 : W4 m ρ c (Proc.devRef .tc main_v18) = val_main_v18 (F := Ideal) (m ((c : Thread nD τ).loc main_arg1)) (m ((c : Thread nD τ).loc main_arg12)) :=
  StretchA.a4_v18 (W3 m ρ c) (m ((c : Thread nD τ).loc main_arg1)) (m ((c : Thread nD τ).loc main_arg12)) (W3_main_v13 m ρ c) (W3_main_v17 m ρ c) (W3_main_cst_4 m ρ c)

theorem W4_main_v3 : W4 m ρ c (Proc.devRef .tc main_v3) = val_main_v3 (F := Ideal) (m ((c : Thread nD τ).loc main_arg12)) :=
  (StretchA.keep4_main_v3 (W3 m ρ c)).trans (W3_main_v3 m ρ c)

theorem W4_main_v6 : W4 m ρ c (Proc.devRef .tc main_v6) = val_main_v6 (F := Ideal) (m ((c : Thread nD τ).loc main_arg12)) :=
  (StretchA.keep4_main_v6 (W3 m ρ c)).trans (W3_main_v6 m ρ c)

theorem W4_main_v8 : W4 m ρ c (Proc.devRef .tc main_v8) = val_main_v8 (F := Ideal) (m ((c : Thread nD τ).loc main_arg1)) :=
  (StretchA.keep4_main_v8 (W3 m ρ c)).trans (W3_main_v8 m ρ c)

theorem W5_main_v34 : W5 m ρ c (Proc.devRef .tc main_v34) = val_main_v34 (F := Ideal) (m ((c : Thread nD τ).loc main_arg1)) (m ((c : Thread nD τ).loc main_arg12)) :=
  StretchA.a5_v34 (W4 m ρ c) (m ((c : Thread nD τ).loc main_arg1)) (m ((c : Thread nD τ).loc main_arg12)) (W4_main_v3 m ρ c) (W4_main_v6 m ρ c) (W4_main_v8 m ρ c) (W4_main_v18 m ρ c)

theorem W5_main_v3 : W5 m ρ c (Proc.devRef .tc main_v3) = val_main_v3 (F := Ideal) (m ((c : Thread nD τ).loc main_arg12)) :=
  (StretchA.keep5_main_v3 (W4 m ρ c)).trans (W4_main_v3 m ρ c)

theorem W5_main_v6 : W5 m ρ c (Proc.devRef .tc main_v6) = val_main_v6 (F := Ideal) (m ((c : Thread nD τ).loc main_arg12)) :=
  (StretchA.keep5_main_v6 (W4 m ρ c)).trans (W4_main_v6 m ρ c)

theorem W5_main_arg0 : W5 m ρ c (Proc.devRef .tc main_arg0) = (m ((c : Thread nD τ).loc main_arg0)) :=
  StretchKA.keepA_main_arg0 (W0 m ρ c)

theorem W5_main_arg2 : W5 m ρ c (Proc.devRef .tc main_arg2) = (m ((c : Thread nD τ).loc main_arg2)) :=
  StretchKA.keepA_main_arg2 (W0 m ρ c)

theorem W5_main_arg3 : W5 m ρ c (Proc.devRef .tc main_arg3) = (m ((c : Thread nD τ).loc main_arg3)) :=
  StretchKA.keepA_main_arg3 (W0 m ρ c)

theorem W5_main_arg4 : W5 m ρ c (Proc.devRef .tc main_arg4) = (m ((c : Thread nD τ).loc main_arg4)) :=
  StretchKA.keepA_main_arg4 (W0 m ρ c)

theorem W5_main_arg5 : W5 m ρ c (Proc.devRef .tc main_arg5) = (m ((c : Thread nD τ).loc main_arg5)) :=
  StretchKA.keepA_main_arg5 (W0 m ρ c)

theorem W5_main_arg6 : W5 m ρ c (Proc.devRef .tc main_arg6) = (m ((c : Thread nD τ).loc main_arg6)) :=
  StretchKA.keepA_main_arg6 (W0 m ρ c)

theorem W5_main_arg7 : W5 m ρ c (Proc.devRef .tc main_arg7) = (m ((c : Thread nD τ).loc main_arg7)) :=
  StretchKA.keepA_main_arg7 (W0 m ρ c)

theorem W5_main_arg8 : W5 m ρ c (Proc.devRef .tc main_arg8) = (m ((c : Thread nD τ).loc main_arg8)) :=
  StretchKA.keepA_main_arg8 (W0 m ρ c)

theorem W5_main_arg9 : W5 m ρ c (Proc.devRef .tc main_arg9) = (m ((c : Thread nD τ).loc main_arg9)) :=
  StretchKA.keepA_main_arg9 (W0 m ρ c)

theorem W5_main_arg10 : W5 m ρ c (Proc.devRef .tc main_arg10) = (m ((c : Thread nD τ).loc main_arg10)) :=
  StretchKA.keepA_main_arg10 (W0 m ρ c)

theorem W5_main_arg11 : W5 m ρ c (Proc.devRef .tc main_arg11) = (m ((c : Thread nD τ).loc main_arg11)) :=
  StretchKA.keepA_main_arg11 (W0 m ρ c)

theorem W5_main_arg13 : W5 m ρ c (Proc.devRef .tc main_arg13) = (m ((c : Thread nD τ).loc main_arg13)) :=
  StretchKA.keepA_main_arg13 (W0 m ρ c)

/-! ## At region 0's exit -/

/-- The region's output: the product of the features it finds with its weight, which is the reference's `dot_general` of the same arrays. -/
theorem W6_main_v35 : W6 m ρ c (Proc.devRef .tc main_v35) = val_main_v35 (F := Ideal) (m ((c : Thread nD τ).loc main_arg0)) (m ((c : Thread nD τ).loc main_arg2)) :=
  (W6_arr m ρ c 2).trans ((Lin0.final (V5 m ρ) c).trans
    ((congrArg₂ (Cert.Spec.mm (M := 100000) (K := 32) (N := 64)) (W5_main_arg0 m ρ c) (W5_main_arg2 m ρ c)).trans
      (val35_eq_mm (m ((c : Thread nD τ).loc main_arg0)) (m ((c : Thread nD τ).loc main_arg2))).symm))

theorem W6_main_v3 : W6 m ρ c (Proc.devRef .tc main_v3) = val_main_v3 (F := Ideal) (m ((c : Thread nD τ).loc main_arg12)) :=
  (W6_of_ne m ρ c main_v3 (by decide)).trans (W5_main_v3 m ρ c)
theorem W6_main_v6 : W6 m ρ c (Proc.devRef .tc main_v6) = val_main_v6 (F := Ideal) (m ((c : Thread nD τ).loc main_arg12)) :=
  (W6_of_ne m ρ c main_v6 (by decide)).trans (W5_main_v6 m ρ c)
theorem W6_main_v34 : W6 m ρ c (Proc.devRef .tc main_v34) = val_main_v34 (F := Ideal) (m ((c : Thread nD τ).loc main_arg1)) (m ((c : Thread nD τ).loc main_arg12)) :=
  (W6_of_ne m ρ c main_v34 (by decide)).trans (W5_main_v34 m ρ c)
theorem W6_main_arg3 : W6 m ρ c (Proc.devRef .tc main_arg3) = (m ((c : Thread nD τ).loc main_arg3)) :=
  (W6_of_ne m ρ c main_arg3 (by decide)).trans (W5_main_arg3 m ρ c)
theorem W6_main_arg4 : W6 m ρ c (Proc.devRef .tc main_arg4) = (m ((c : Thread nD τ).loc main_arg4)) :=
  (W6_of_ne m ρ c main_arg4 (by decide)).trans (W5_main_arg4 m ρ c)
theorem W6_main_arg5 : W6 m ρ c (Proc.devRef .tc main_arg5) = (m ((c : Thread nD τ).loc main_arg5)) :=
  (W6_of_ne m ρ c main_arg5 (by decide)).trans (W5_main_arg5 m ρ c)
theorem W6_main_arg6 : W6 m ρ c (Proc.devRef .tc main_arg6) = (m ((c : Thread nD τ).loc main_arg6)) :=
  (W6_of_ne m ρ c main_arg6 (by decide)).trans (W5_main_arg6 m ρ c)
theorem W6_main_arg7 : W6 m ρ c (Proc.devRef .tc main_arg7) = (m ((c : Thread nD τ).loc main_arg7)) :=
  (W6_of_ne m ρ c main_arg7 (by decide)).trans (W5_main_arg7 m ρ c)
theorem W6_main_arg8 : W6 m ρ c (Proc.devRef .tc main_arg8) = (m ((c : Thread nD τ).loc main_arg8)) :=
  (W6_of_ne m ρ c main_arg8 (by decide)).trans (W5_main_arg8 m ρ c)
theorem W6_main_arg9 : W6 m ρ c (Proc.devRef .tc main_arg9) = (m ((c : Thread nD τ).loc main_arg9)) :=
  (W6_of_ne m ρ c main_arg9 (by decide)).trans (W5_main_arg9 m ρ c)
theorem W6_main_arg10 : W6 m ρ c (Proc.devRef .tc main_arg10) = (m ((c : Thread nD τ).loc main_arg10)) :=
  (W6_of_ne m ρ c main_arg10 (by decide)).trans (W5_main_arg10 m ρ c)
theorem W6_main_arg11 : W6 m ρ c (Proc.devRef .tc main_arg11) = (m ((c : Thread nD τ).loc main_arg11)) :=
  (W6_of_ne m ρ c main_arg11 (by decide)).trans (W5_main_arg11 m ρ c)
theorem W6_main_arg13 : W6 m ρ c (Proc.devRef .tc main_arg13) = (m ((c : Thread nD τ).loc main_arg13)) :=
  (W6_of_ne m ρ c main_arg13 (by decide)).trans (W5_main_arg13 m ρ c)

/-! ## At the next region's entry, after the host part of the layer (stretch B) -/

theorem W7_main_v51 : W7 m ρ c (Proc.devRef .tc main_v51) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg12)) :=
  StretchB.segB_pre (W6 m ρ c) (m ((c : Thread nD τ).loc main_arg0)) (m ((c : Thread nD τ).loc main_arg1)) (m ((c : Thread nD τ).loc main_arg2)) (m ((c : Thread nD τ).loc main_arg3)) (m ((c : Thread nD τ).loc main_arg12)) (W6_main_v34 m ρ c) (W6_main_v3 m ρ c) (W6_main_v6 m ρ c) (W6_main_v35 m ρ c) (W6_main_arg3 m ρ c)

theorem W8_main_v52 : W8 m ρ c (Proc.devRef .tc main_v52) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg12)) :=
  StretchB.segB_relu (W7 m ρ c) (m ((c : Thread nD τ).loc main_arg0)) (m ((c : Thread nD τ).loc main_arg1)) (m ((c : Thread nD τ).loc main_arg2)) (m ((c : Thread nD τ).loc main_arg3)) (m ((c : Thread nD τ).loc main_arg12)) (W7_main_v51 m ρ c)

theorem W8_main_v3 : W8 m ρ c (Proc.devRef .tc main_v3) = val_main_v3 (F := Ideal) (m ((c : Thread nD τ).loc main_arg12)) :=
  (StretchB.keepB_main_v3 (W6 m ρ c)).trans (W6_main_v3 m ρ c)
theorem W8_main_v6 : W8 m ρ c (Proc.devRef .tc main_v6) = val_main_v6 (F := Ideal) (m ((c : Thread nD τ).loc main_arg12)) :=
  (StretchB.keepB_main_v6 (W6 m ρ c)).trans (W6_main_v6 m ρ c)
theorem W8_main_v34 : W8 m ρ c (Proc.devRef .tc main_v34) = val_main_v34 (F := Ideal) (m ((c : Thread nD τ).loc main_arg1)) (m ((c : Thread nD τ).loc main_arg12)) :=
  (StretchB.keepB_main_v34 (W6 m ρ c)).trans (W6_main_v34 m ρ c)
theorem W8_main_arg4 : W8 m ρ c (Proc.devRef .tc main_arg4) = (m ((c : Thread nD τ).loc main_arg4)) :=
  (StretchB.keepB_main_arg4 (W6 m ρ c)).trans (W6_main_arg4 m ρ c)
theorem W8_main_arg5 : W8 m ρ c (Proc.devRef .tc main_arg5) = (m ((c : Thread nD τ).loc main_arg5)) :=
  (StretchB.keepB_main_arg5 (W6 m ρ c)).trans (W6_main_arg5 m ρ c)
theorem W8_main_arg6 : W8 m ρ c (Proc.devRef .tc main_arg6) = (m ((c : Thread nD τ).loc main_arg6)) :=
  (StretchB.keepB_main_arg6 (W6 m ρ c)).trans (W6_main_arg6 m ρ c)
theorem W8_main_arg7 : W8 m ρ c (Proc.devRef .tc main_arg7) = (m ((c : Thread nD τ).loc main_arg7)) :=
  (StretchB.keepB_main_arg7 (W6 m ρ c)).trans (W6_main_arg7 m ρ c)
theorem W8_main_arg8 : W8 m ρ c (Proc.devRef .tc main_arg8) = (m ((c : Thread nD τ).loc main_arg8)) :=
  (StretchB.keepB_main_arg8 (W6 m ρ c)).trans (W6_main_arg8 m ρ c)
theorem W8_main_arg9 : W8 m ρ c (Proc.devRef .tc main_arg9) = (m ((c : Thread nD τ).loc main_arg9)) :=
  (StretchB.keepB_main_arg9 (W6 m ρ c)).trans (W6_main_arg9 m ρ c)
theorem W8_main_arg10 : W8 m ρ c (Proc.devRef .tc main_arg10) = (m ((c : Thread nD τ).loc main_arg10)) :=
  (StretchB.keepB_main_arg10 (W6 m ρ c)).trans (W6_main_arg10 m ρ c)
theorem W8_main_arg11 : W8 m ρ c (Proc.devRef .tc main_arg11) = (m ((c : Thread nD τ).loc main_arg11)) :=
  (StretchB.keepB_main_arg11 (W6 m ρ c)).trans (W6_main_arg11 m ρ c)
theorem W8_main_arg13 : W8 m ρ c (Proc.devRef .tc main_arg13) = (m ((c : Thread nD τ).loc main_arg13)) :=
  (StretchB.keepB_main_arg13 (W6 m ρ c)).trans (W6_main_arg13 m ρ c)

/-! ## At region 1's exit -/

/-- The region's output: the product of the features it finds with its weight, which is the reference's `dot_general` of the same arrays. -/
theorem W9_main_v53 : W9 m ρ c (Proc.devRef .tc main_v53) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) :=
  (W9_arr m ρ c 2).trans ((Lin1.final (V8 m ρ) c).trans
    ((congrArg₂ (Cert.Spec.mm (M := 100000) (K := 64) (N := 64)) (W8_main_v52 m ρ c) (W8_main_arg4 m ρ c)).trans
      (val53_eq_mm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12))).symm))

theorem W9_main_v3 : W9 m ρ c (Proc.devRef .tc main_v3) = val_main_v3 (F := Ideal) (m ((c : Thread nD τ).loc main_arg12)) :=
  (W9_of_ne m ρ c main_v3 (by decide)).trans (W8_main_v3 m ρ c)
theorem W9_main_v6 : W9 m ρ c (Proc.devRef .tc main_v6) = val_main_v6 (F := Ideal) (m ((c : Thread nD τ).loc main_arg12)) :=
  (W9_of_ne m ρ c main_v6 (by decide)).trans (W8_main_v6 m ρ c)
theorem W9_main_v34 : W9 m ρ c (Proc.devRef .tc main_v34) = val_main_v34 (F := Ideal) (m ((c : Thread nD τ).loc main_arg1)) (m ((c : Thread nD τ).loc main_arg12)) :=
  (W9_of_ne m ρ c main_v34 (by decide)).trans (W8_main_v34 m ρ c)
theorem W9_main_arg5 : W9 m ρ c (Proc.devRef .tc main_arg5) = (m ((c : Thread nD τ).loc main_arg5)) :=
  (W9_of_ne m ρ c main_arg5 (by decide)).trans (W8_main_arg5 m ρ c)
theorem W9_main_arg6 : W9 m ρ c (Proc.devRef .tc main_arg6) = (m ((c : Thread nD τ).loc main_arg6)) :=
  (W9_of_ne m ρ c main_arg6 (by decide)).trans (W8_main_arg6 m ρ c)
theorem W9_main_arg7 : W9 m ρ c (Proc.devRef .tc main_arg7) = (m ((c : Thread nD τ).loc main_arg7)) :=
  (W9_of_ne m ρ c main_arg7 (by decide)).trans (W8_main_arg7 m ρ c)
theorem W9_main_arg8 : W9 m ρ c (Proc.devRef .tc main_arg8) = (m ((c : Thread nD τ).loc main_arg8)) :=
  (W9_of_ne m ρ c main_arg8 (by decide)).trans (W8_main_arg8 m ρ c)
theorem W9_main_arg9 : W9 m ρ c (Proc.devRef .tc main_arg9) = (m ((c : Thread nD τ).loc main_arg9)) :=
  (W9_of_ne m ρ c main_arg9 (by decide)).trans (W8_main_arg9 m ρ c)
theorem W9_main_arg10 : W9 m ρ c (Proc.devRef .tc main_arg10) = (m ((c : Thread nD τ).loc main_arg10)) :=
  (W9_of_ne m ρ c main_arg10 (by decide)).trans (W8_main_arg10 m ρ c)
theorem W9_main_arg11 : W9 m ρ c (Proc.devRef .tc main_arg11) = (m ((c : Thread nD τ).loc main_arg11)) :=
  (W9_of_ne m ρ c main_arg11 (by decide)).trans (W8_main_arg11 m ρ c)
theorem W9_main_arg13 : W9 m ρ c (Proc.devRef .tc main_arg13) = (m ((c : Thread nD τ).loc main_arg13)) :=
  (W9_of_ne m ρ c main_arg13 (by decide)).trans (W8_main_arg13 m ρ c)

/-! ## At the next region's entry, after the host part of the layer (stretch C) -/

theorem W10_main_v69 : W10 m ρ c (Proc.devRef .tc main_v69) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) :=
  StretchC.segC_pre (W9 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (W9_main_v34 m ρ c) (W9_main_v3 m ρ c) (W9_main_v6 m ρ c) (W9_main_v53 m ρ c) (W9_main_arg5 m ρ c)

theorem W11_main_v70 : W11 m ρ c (Proc.devRef .tc main_v70) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) :=
  StretchC.segC_relu (W10 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (W10_main_v69 m ρ c)

theorem W11_main_v3 : W11 m ρ c (Proc.devRef .tc main_v3) = val_main_v3 (F := Ideal) (m ((c : Thread nD τ).loc main_arg12)) :=
  (StretchC.keepC_main_v3 (W9 m ρ c)).trans (W9_main_v3 m ρ c)
theorem W11_main_v6 : W11 m ρ c (Proc.devRef .tc main_v6) = val_main_v6 (F := Ideal) (m ((c : Thread nD τ).loc main_arg12)) :=
  (StretchC.keepC_main_v6 (W9 m ρ c)).trans (W9_main_v6 m ρ c)
theorem W11_main_v34 : W11 m ρ c (Proc.devRef .tc main_v34) = val_main_v34 (F := Ideal) (m ((c : Thread nD τ).loc main_arg1)) (m ((c : Thread nD τ).loc main_arg12)) :=
  (StretchC.keepC_main_v34 (W9 m ρ c)).trans (W9_main_v34 m ρ c)
theorem W11_main_arg6 : W11 m ρ c (Proc.devRef .tc main_arg6) = (m ((c : Thread nD τ).loc main_arg6)) :=
  (StretchC.keepC_main_arg6 (W9 m ρ c)).trans (W9_main_arg6 m ρ c)
theorem W11_main_arg7 : W11 m ρ c (Proc.devRef .tc main_arg7) = (m ((c : Thread nD τ).loc main_arg7)) :=
  (StretchC.keepC_main_arg7 (W9 m ρ c)).trans (W9_main_arg7 m ρ c)
theorem W11_main_arg8 : W11 m ρ c (Proc.devRef .tc main_arg8) = (m ((c : Thread nD τ).loc main_arg8)) :=
  (StretchC.keepC_main_arg8 (W9 m ρ c)).trans (W9_main_arg8 m ρ c)
theorem W11_main_arg9 : W11 m ρ c (Proc.devRef .tc main_arg9) = (m ((c : Thread nD τ).loc main_arg9)) :=
  (StretchC.keepC_main_arg9 (W9 m ρ c)).trans (W9_main_arg9 m ρ c)
theorem W11_main_arg10 : W11 m ρ c (Proc.devRef .tc main_arg10) = (m ((c : Thread nD τ).loc main_arg10)) :=
  (StretchC.keepC_main_arg10 (W9 m ρ c)).trans (W9_main_arg10 m ρ c)
theorem W11_main_arg11 : W11 m ρ c (Proc.devRef .tc main_arg11) = (m ((c : Thread nD τ).loc main_arg11)) :=
  (StretchC.keepC_main_arg11 (W9 m ρ c)).trans (W9_main_arg11 m ρ c)
theorem W11_main_arg13 : W11 m ρ c (Proc.devRef .tc main_arg13) = (m ((c : Thread nD τ).loc main_arg13)) :=
  (StretchC.keepC_main_arg13 (W9 m ρ c)).trans (W9_main_arg13 m ρ c)

/-! ## At region 2's exit -/

/-- The region's output: the product of the features it finds with its weight, which is the reference's `dot_general` of the same arrays. -/
theorem W12_main_v71 : W12 m ρ c (Proc.devRef .tc main_v71) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg12)) :=
  (W12_arr m ρ c 2).trans ((Lin2.final (V11 m ρ) c).trans
    ((congrArg₂ (Cert.Spec.mm (M := 100000) (K := 64) (N := 64)) (W11_main_v70 m ρ c) (W11_main_arg6 m ρ c)).trans
      (val71_eq_mm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg12))).symm))

theorem W12_main_v3 : W12 m ρ c (Proc.devRef .tc main_v3) = val_main_v3 (F := Ideal) (m ((c : Thread nD τ).loc main_arg12)) :=
  (W12_of_ne m ρ c main_v3 (by decide)).trans (W11_main_v3 m ρ c)
theorem W12_main_v6 : W12 m ρ c (Proc.devRef .tc main_v6) = val_main_v6 (F := Ideal) (m ((c : Thread nD τ).loc main_arg12)) :=
  (W12_of_ne m ρ c main_v6 (by decide)).trans (W11_main_v6 m ρ c)
theorem W12_main_v34 : W12 m ρ c (Proc.devRef .tc main_v34) = val_main_v34 (F := Ideal) (m ((c : Thread nD τ).loc main_arg1)) (m ((c : Thread nD τ).loc main_arg12)) :=
  (W12_of_ne m ρ c main_v34 (by decide)).trans (W11_main_v34 m ρ c)
theorem W12_main_arg7 : W12 m ρ c (Proc.devRef .tc main_arg7) = (m ((c : Thread nD τ).loc main_arg7)) :=
  (W12_of_ne m ρ c main_arg7 (by decide)).trans (W11_main_arg7 m ρ c)
theorem W12_main_arg8 : W12 m ρ c (Proc.devRef .tc main_arg8) = (m ((c : Thread nD τ).loc main_arg8)) :=
  (W12_of_ne m ρ c main_arg8 (by decide)).trans (W11_main_arg8 m ρ c)
theorem W12_main_arg9 : W12 m ρ c (Proc.devRef .tc main_arg9) = (m ((c : Thread nD τ).loc main_arg9)) :=
  (W12_of_ne m ρ c main_arg9 (by decide)).trans (W11_main_arg9 m ρ c)
theorem W12_main_arg10 : W12 m ρ c (Proc.devRef .tc main_arg10) = (m ((c : Thread nD τ).loc main_arg10)) :=
  (W12_of_ne m ρ c main_arg10 (by decide)).trans (W11_main_arg10 m ρ c)
theorem W12_main_arg11 : W12 m ρ c (Proc.devRef .tc main_arg11) = (m ((c : Thread nD τ).loc main_arg11)) :=
  (W12_of_ne m ρ c main_arg11 (by decide)).trans (W11_main_arg11 m ρ c)
theorem W12_main_arg13 : W12 m ρ c (Proc.devRef .tc main_arg13) = (m ((c : Thread nD τ).loc main_arg13)) :=
  (W12_of_ne m ρ c main_arg13 (by decide)).trans (W11_main_arg13 m ρ c)

/-! ## At the next region's entry, after the host part of the layer (stretch D) -/

theorem W13_main_v87 : W13 m ρ c (Proc.devRef .tc main_v87) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) :=
  StretchD.segD_pre (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (W12_main_v34 m ρ c) (W12_main_v3 m ρ c) (W12_main_v6 m ρ c) (W12_main_v71 m ρ c) (W12_main_arg7 m ρ c)

theorem W14_main_v88 : W14 m ρ c (Proc.devRef .tc main_v88) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) :=
  StretchD.segD_relu (W13 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (W13_main_v87 m ρ c)

theorem W14_main_v3 : W14 m ρ c (Proc.devRef .tc main_v3) = val_main_v3 (F := Ideal) (m ((c : Thread nD τ).loc main_arg12)) :=
  (StretchD.keepD_main_v3 (W12 m ρ c)).trans (W12_main_v3 m ρ c)
theorem W14_main_v6 : W14 m ρ c (Proc.devRef .tc main_v6) = val_main_v6 (F := Ideal) (m ((c : Thread nD τ).loc main_arg12)) :=
  (StretchD.keepD_main_v6 (W12 m ρ c)).trans (W12_main_v6 m ρ c)
theorem W14_main_v34 : W14 m ρ c (Proc.devRef .tc main_v34) = val_main_v34 (F := Ideal) (m ((c : Thread nD τ).loc main_arg1)) (m ((c : Thread nD τ).loc main_arg12)) :=
  (StretchD.keepD_main_v34 (W12 m ρ c)).trans (W12_main_v34 m ρ c)
theorem W14_main_arg8 : W14 m ρ c (Proc.devRef .tc main_arg8) = (m ((c : Thread nD τ).loc main_arg8)) :=
  (StretchD.keepD_main_arg8 (W12 m ρ c)).trans (W12_main_arg8 m ρ c)
theorem W14_main_arg9 : W14 m ρ c (Proc.devRef .tc main_arg9) = (m ((c : Thread nD τ).loc main_arg9)) :=
  (StretchD.keepD_main_arg9 (W12 m ρ c)).trans (W12_main_arg9 m ρ c)
theorem W14_main_arg10 : W14 m ρ c (Proc.devRef .tc main_arg10) = (m ((c : Thread nD τ).loc main_arg10)) :=
  (StretchD.keepD_main_arg10 (W12 m ρ c)).trans (W12_main_arg10 m ρ c)
theorem W14_main_arg11 : W14 m ρ c (Proc.devRef .tc main_arg11) = (m ((c : Thread nD τ).loc main_arg11)) :=
  (StretchD.keepD_main_arg11 (W12 m ρ c)).trans (W12_main_arg11 m ρ c)
theorem W14_main_arg13 : W14 m ρ c (Proc.devRef .tc main_arg13) = (m ((c : Thread nD τ).loc main_arg13)) :=
  (StretchD.keepD_main_arg13 (W12 m ρ c)).trans (W12_main_arg13 m ρ c)

/-! ## At region 3's exit -/

/-- The region's output: the product of the features it finds with its weight, which is the reference's `dot_general` of the same arrays. -/
theorem W15_main_v89 : W15 m ρ c (Proc.devRef .tc main_v89) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) :=
  (W15_arr m ρ c 2).trans ((Lin3.final (V14 m ρ) c).trans
    ((congrArg₂ (Cert.Spec.mm (M := 100000) (K := 64) (N := 64)) (W14_main_v88 m ρ c) (W14_main_arg8 m ρ c)).trans
      (val89_eq_mm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12))).symm))

theorem W15_main_v3 : W15 m ρ c (Proc.devRef .tc main_v3) = val_main_v3 (F := Ideal) (m ((c : Thread nD τ).loc main_arg12)) :=
  (W15_of_ne m ρ c main_v3 (by decide)).trans (W14_main_v3 m ρ c)
theorem W15_main_v6 : W15 m ρ c (Proc.devRef .tc main_v6) = val_main_v6 (F := Ideal) (m ((c : Thread nD τ).loc main_arg12)) :=
  (W15_of_ne m ρ c main_v6 (by decide)).trans (W14_main_v6 m ρ c)
theorem W15_main_v34 : W15 m ρ c (Proc.devRef .tc main_v34) = val_main_v34 (F := Ideal) (m ((c : Thread nD τ).loc main_arg1)) (m ((c : Thread nD τ).loc main_arg12)) :=
  (W15_of_ne m ρ c main_v34 (by decide)).trans (W14_main_v34 m ρ c)
theorem W15_main_arg9 : W15 m ρ c (Proc.devRef .tc main_arg9) = (m ((c : Thread nD τ).loc main_arg9)) :=
  (W15_of_ne m ρ c main_arg9 (by decide)).trans (W14_main_arg9 m ρ c)
theorem W15_main_arg10 : W15 m ρ c (Proc.devRef .tc main_arg10) = (m ((c : Thread nD τ).loc main_arg10)) :=
  (W15_of_ne m ρ c main_arg10 (by decide)).trans (W14_main_arg10 m ρ c)
theorem W15_main_arg11 : W15 m ρ c (Proc.devRef .tc main_arg11) = (m ((c : Thread nD τ).loc main_arg11)) :=
  (W15_of_ne m ρ c main_arg11 (by decide)).trans (W14_main_arg11 m ρ c)
theorem W15_main_arg13 : W15 m ρ c (Proc.devRef .tc main_arg13) = (m ((c : Thread nD τ).loc main_arg13)) :=
  (W15_of_ne m ρ c main_arg13 (by decide)).trans (W14_main_arg13 m ρ c)

/-! ## At the next region's entry, after the host part of the layer (stretch E) -/

theorem W16_main_v105 : W16 m ρ c (Proc.devRef .tc main_v105) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) :=
  StretchE.segE_pre (W15 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (W15_main_v34 m ρ c) (W15_main_v3 m ρ c) (W15_main_v6 m ρ c) (W15_main_v89 m ρ c) (W15_main_arg9 m ρ c)

theorem W17_main_v106 : W17 m ρ c (Proc.devRef .tc main_v106) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) :=
  StretchE.segE_relu (W16 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (W16_main_v105 m ρ c)

theorem W17_main_v3 : W17 m ρ c (Proc.devRef .tc main_v3) = val_main_v3 (F := Ideal) (m ((c : Thread nD τ).loc main_arg12)) :=
  (StretchE.keepE_main_v3 (W15 m ρ c)).trans (W15_main_v3 m ρ c)
theorem W17_main_v6 : W17 m ρ c (Proc.devRef .tc main_v6) = val_main_v6 (F := Ideal) (m ((c : Thread nD τ).loc main_arg12)) :=
  (StretchE.keepE_main_v6 (W15 m ρ c)).trans (W15_main_v6 m ρ c)
theorem W17_main_v34 : W17 m ρ c (Proc.devRef .tc main_v34) = val_main_v34 (F := Ideal) (m ((c : Thread nD τ).loc main_arg1)) (m ((c : Thread nD τ).loc main_arg12)) :=
  (StretchE.keepE_main_v34 (W15 m ρ c)).trans (W15_main_v34 m ρ c)
theorem W17_main_arg10 : W17 m ρ c (Proc.devRef .tc main_arg10) = (m ((c : Thread nD τ).loc main_arg10)) :=
  (StretchE.keepE_main_arg10 (W15 m ρ c)).trans (W15_main_arg10 m ρ c)
theorem W17_main_arg11 : W17 m ρ c (Proc.devRef .tc main_arg11) = (m ((c : Thread nD τ).loc main_arg11)) :=
  (StretchE.keepE_main_arg11 (W15 m ρ c)).trans (W15_main_arg11 m ρ c)
theorem W17_main_arg13 : W17 m ρ c (Proc.devRef .tc main_arg13) = (m ((c : Thread nD τ).loc main_arg13)) :=
  (StretchE.keepE_main_arg13 (W15 m ρ c)).trans (W15_main_arg13 m ρ c)

/-! ## At region 4's exit -/

/-- The region's output: the product of the features it finds with its weight, which is the reference's `dot_general` of the same arrays. -/
theorem W18_main_v107 : W18 m ρ c (Proc.devRef .tc main_v107) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) :=
  (W18_arr m ρ c 2).trans ((Lin4.final (V17 m ρ) c).trans
    ((congrArg₂ (Cert.Spec.mm (M := 100000) (K := 64) (N := 64)) (W17_main_v106 m ρ c) (W17_main_arg10 m ρ c)).trans
      (val107_eq_mm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12))).symm))

theorem W18_main_v3 : W18 m ρ c (Proc.devRef .tc main_v3) = val_main_v3 (F := Ideal) (m ((c : Thread nD τ).loc main_arg12)) :=
  (W18_of_ne m ρ c main_v3 (by decide)).trans (W17_main_v3 m ρ c)
theorem W18_main_v6 : W18 m ρ c (Proc.devRef .tc main_v6) = val_main_v6 (F := Ideal) (m ((c : Thread nD τ).loc main_arg12)) :=
  (W18_of_ne m ρ c main_v6 (by decide)).trans (W17_main_v6 m ρ c)
theorem W18_main_v34 : W18 m ρ c (Proc.devRef .tc main_v34) = val_main_v34 (F := Ideal) (m ((c : Thread nD τ).loc main_arg1)) (m ((c : Thread nD τ).loc main_arg12)) :=
  (W18_of_ne m ρ c main_v34 (by decide)).trans (W17_main_v34 m ρ c)
theorem W18_main_arg11 : W18 m ρ c (Proc.devRef .tc main_arg11) = (m ((c : Thread nD τ).loc main_arg11)) :=
  (W18_of_ne m ρ c main_arg11 (by decide)).trans (W17_main_arg11 m ρ c)
theorem W18_main_arg13 : W18 m ρ c (Proc.devRef .tc main_arg13) = (m ((c : Thread nD τ).loc main_arg13)) :=
  (W18_of_ne m ρ c main_arg13 (by decide)).trans (W17_main_arg13 m ρ c)

/-! ## At the last region's entry, its exit, and the program's end -/

theorem W23_main_v136 : W23 m ρ c (Proc.devRef .tc main_v136) = Host.gather gather_S100000x64_S1007616x1_S1007616x64_1_0_n_n_0_1_164 (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (StretchTail.padIdx (val_main_v125 (F := Ideal) (m ((c : Thread nD τ).loc main_arg13)))) :=
  StretchTail.segF_v136 (W18 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (W18_main_v34 m ρ c) (W18_main_v3 m ρ c) (W18_main_v6 m ρ c) (W18_main_v107 m ρ c) (W18_main_arg11 m ρ c) (W18_main_arg13 m ρ c)

theorem W23_main_v143 : W23 m ρ c (Proc.devRef .tc main_v143) = Host.gather gather_S100000x64_S1007616x1_S1007616x64_1_0_n_n_0_1_164 (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (StretchTail.padIdx (val_main_v134 (F := Ideal) (m ((c : Thread nD τ).loc main_arg13)))) :=
  StretchTail.segF_v143 (W18 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (W18_main_v34 m ρ c) (W18_main_v3 m ρ c) (W18_main_v6 m ρ c) (W18_main_v107 m ρ c) (W18_main_arg11 m ρ c) (W18_main_arg13 m ρ c)

/-- The last region's output: the row-by-row inner product of the two gathered arrays. -/
theorem W24_main_v144 : W24 m ρ c (Proc.devRef .tc main_v144) = Cert.Spec.rowdot (M := 1007616) (K := 64) (Host.gather gather_S100000x64_S1007616x1_S1007616x64_1_0_n_n_0_1_164 (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (StretchTail.padIdx (val_main_v125 (F := Ideal) (m ((c : Thread nD τ).loc main_arg13))))) (Host.gather gather_S100000x64_S1007616x1_S1007616x64_1_0_n_n_0_1_164 (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (StretchTail.padIdx (val_main_v134 (F := Ideal) (m ((c : Thread nD τ).loc main_arg13))))) :=
  (W24_arr m ρ c 2).trans ((Dot5.final (V23 m ρ) c).trans
    (congrArg₂ (Cert.Spec.rowdot (M := 1007616) (K := 64)) (W23_main_v136 m ρ c) (W23_main_v143 m ρ c)))

/-- THE KERNEL'S RESULT as a function of the arguments: the first 1000000 row-by-row inner products of the node
    embeddings' rows the two padded label lists name. -/
theorem W25_main_v145 : W25 m ρ c (Proc.devRef .tc main_v145)
    = extractStridedSlice S1000000 ![0] (Cert.Spec.rowdot (M := 1007616) (K := 64) (Host.gather gather_S100000x64_S1007616x1_S1007616x64_1_0_n_n_0_1_164 (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (StretchTail.padIdx (val_main_v125 (F := Ideal) (m ((c : Thread nD τ).loc main_arg13))))) (Host.gather gather_S100000x64_S1007616x1_S1007616x64_1_0_n_n_0_1_164 (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (StretchTail.padIdx (val_main_v134 (F := Ideal) (m ((c : Thread nD τ).loc main_arg13)))))) slices_S1007616_S1000000_0 :=
  (StretchTail.segG_v145 (W24 m ρ c)).trans
    (congrArg (fun y => extractStridedSlice S1000000 ![0] y slices_S1007616_S1000000_0) (W24_main_v144 m ρ c))

end Cert.KernelIdeal.Chain

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.Tail.lean ====
/-
  The decode, kernel against reference, index by index.

  The kernel pads each of the two label lists with zeros from 1000000 to 1007616 entries, gathers the embeddings'
  rows the entries name, takes the row-by-row inner products in its last region, and keeps the first 1000000. The
  reference gathers the rows the unpadded lists name, multiplies entry by entry and sums each row from zero.
  At a position below 1000000 the padded list is the list, a gather reads the row its start index names (read
  signed, clamped into the rows), and the sum from zero of the 64 products is the inner product. So the two results
  agree at every one of the 1000000 positions, whatever the embeddings and the labels are.
-/
import proofs.«153558_j60687887892626_1_alg».proof.Proof.Gen.ReferenceIdeal.Read
import proofs.«153558_j60687887892626_1_alg».proof.Proof.Spec
import proofs.«153558_j60687887892626_1_alg».proof.Proof.StretchTail
import proofs.«153558_j60687887892626_1_alg».proof.Proof.LibGatherRows
import Idealize.ShloMosaic.Lib.Pipeline.Value
import Idealize.ShloMosaic.Lib.KernelVsHost
import Idealize.ShloMosaic.Lib.ValueIdx
import Idealize.ShloMosaic.PureOps.Ideal.Laws

set_option maxRecDepth 16384

noncomputable section

open scoped BigOperators

namespace Cert.Tail

open Idealize.ShloMosaic Idealize.ShloMosaic.ValueIdx
open Cert.KernelIdeal Cert.KernelIdeal.Gen
open Cert.ReferenceIdeal.Read
open Cert.KernelIdeal.StretchTail (padIdx)

/-- jnp's index normalisation at one entry: a negative index is moved up by the number of nodes. -/
def wrap1 (v : BitVec 32) : BitVec 32 := Scalar.select (IntOp.cmpi .slt v 0#32) (IntOp.addi v 100000#32) v

/-- A constant spread over the padded list, read at a position. -/
theorem bcastConst_apply (v : BitVec 32) (i : S1007616.Idx) :
    broadcastInDim S1007616 ![] bcast_S_S1007616 (constantI S_ 32 v) i = v :=
  (broadcastInDim_apply ![] bcast_S_S1007616 (constantI S_ 32 v) i ix0 (fun a => a.elim0)).trans rfl

/-- The padded list read below the list's length is the list. -/
theorem pad_below (e : (⟨S1000000, .i32⟩ : BufTy).Contents (Elt Ideal)) (a : Fin 1000000) (ha : a.val < 1007616) :
    pad S1007616 ![0] ![7616] ![0] e (constantI S_ 32 0#32) pads_S1000000_S1007616_076160 h_S_ (ix1 (⟨a.val, ha⟩ : Fin 1007616)) = e (ix1 a) :=
  pad_apply_of_inside ![0] ![7616] ![0] e (constantI S_ 32 0#32) pads_S1000000_S1007616_076160 h_S_ (ix1 (⟨a.val, ha⟩ : Fin 1007616)) (ix1 a)
    (fun b => match b with | ⟨0, _⟩ => by show a.val = 0 + a.val * (0 + 1); omega)

/-- The kernel's start index at a position below the list's length: the list's entry there, normalised. -/
theorem padIdx_apply (e : (⟨S1000000, .i32⟩ : BufTy).Contents (Elt Ideal)) (a : Fin 1000000) (ha : a.val < 1007616) :
    padIdx e (ix2 (⟨a.val, ha⟩ : Fin 1007616) (0 : Fin 1)) = wrap1 (e (ix1 a)) := by
  unfold padIdx
  rw [broadcastInDim_apply ![0] bcast_S1007616_S1007616x1_0 _ (ix2 (⟨a.val, ha⟩ : Fin 1007616) (0 : Fin 1)) (ix1 (⟨a.val, ha⟩ : Fin 1007616))
    (fun b => match b with | ⟨0, _⟩ => by show a.val = if (1007616 : Nat) = 1 then 0 else a.val; rw [if_neg (by decide)])]
  simp only [select, cmpi, addi, pad_below e a ha, bcastConst_apply]
  rfl

/-- The reference's first start index at a position: the first list's entry there, normalised. -/
theorem refIdx0_apply (x13 : (⟨S2x1000000, .i32⟩ : BufTy).Contents (Elt Ideal)) (a : Fin 1000000) :
    val_main_v131 (F := Ideal) x13 (ix2 a (0 : Fin 1)) = wrap1 (val_main_v125 (F := Ideal) x13 (ix1 a)) := by
  have hi : idx_main_v131 (ix2 a (0 : Fin 1)) = ix1 a := funext fun b => by match b with | ⟨0, _⟩ => rfl
  rw [val_main_v131_apply, hi, val_main_v130_apply, val_main_v127_apply, val_main_v129_apply, val_main_v126_apply, val_main_v128_apply,
    val_main_c_23_apply, val_main_c_24_apply]
  rfl

/-- The reference's second start index at a position: the second list's entry there, normalised. -/
theorem refIdx1_apply (x13 : (⟨S2x1000000, .i32⟩ : BufTy).Contents (Elt Ideal)) (a : Fin 1000000) :
    val_main_v140 (F := Ideal) x13 (ix2 a (0 : Fin 1)) = wrap1 (val_main_v134 (F := Ideal) x13 (ix1 a)) := by
  have hi : idx_main_v140 (ix2 a (0 : Fin 1)) = ix1 a := funext fun b => by match b with | ⟨0, _⟩ => rfl
  rw [val_main_v140_apply, hi, val_main_v139_apply, val_main_v136_apply, val_main_v138_apply, val_main_v135_apply, val_main_v137_apply,
    val_main_c_25_apply, val_main_c_26_apply]
  rfl

/-- The row a start index names depends only on the start index. -/
theorem rowOf_congr {N E E' : Nat} (hN : 0 < N) (G : IVec ⟨2, ![E, 1]⟩ 32) (G' : IVec ⟨2, ![E', 1]⟩ 32) (a : Fin E) (a' : Fin E')
    (h : G (ix2 a 0) = G' (ix2 a' 0)) : Cert.GatherRows.rowOf hN G a = Cert.GatherRows.rowOf hN G' a' := by
  apply Fin.ext
  show min (G (ix2 a 0)).toInt.toNat (N - 1) = min (G' (ix2 a' 0)).toInt.toNat (N - 1)
  rw [h]

/-- THE DECODE: the kernel's result array, as a function of the embeddings and the label argument, is the reference's. -/
theorem tail_eq (x0 : (⟨S100000x32, .f32⟩ : BufTy).Contents (Elt Ideal)) (x1 : (⟨S3200000, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S2x3200000, .i32⟩ : BufTy).Contents (Elt Ideal)) (x13 : (⟨S2x1000000, .i32⟩ : BufTy).Contents (Elt Ideal)) :
    extractStridedSlice S1000000 ![0]
      (Cert.Spec.rowdot (M := 1007616) (K := 64)
        (Host.gather gather_S100000x64_S1007616x1_S1007616x64_1_0_n_n_0_1_164 (val_main_v123 (F := Ideal) x0 x1 x2 x3 x4 x5 x6 x7 x8 x9 x10 x11 x12) (padIdx (val_main_v125 (F := Ideal) x13)))
        (Host.gather gather_S100000x64_S1007616x1_S1007616x64_1_0_n_n_0_1_164 (val_main_v123 (F := Ideal) x0 x1 x2 x3 x4 x5 x6 x7 x8 x9 x10 x11 x12) (padIdx (val_main_v134 (F := Ideal) x13))))
      slices_S1007616_S1000000_0
    = val_main_v143 (F := Ideal) x0 x1 x2 x3 x4 x5 x6 x7 x8 x9 x10 x11 x12 x13 := by
  funext i
  obtain ⟨a, rfl⟩ : ∃ a : Fin 1000000, i = ix1 a := ⟨i 0, eq_ix1 i⟩
  have ha : a.val < 1007616 := by have := a.isLt; omega
  rw [val_main_v143_apply, val_main_cst_27_apply]
  rw [extractStridedSlice_apply ![0] _ slices_S1007616_S1000000_0 (ix1 a) (ix1 (⟨a.val, ha⟩ : Fin 1007616))
    (fun b => match b with | ⟨0, _⟩ => by show a.val = 0 + a.val; omega)]
  show _ = Ideal.ofBits .f32 0x00000000#32 + _
  rw [Ideal.ofBits_zero_f32, zero_add]
  unfold Cert.Spec.rowdot
  refine Finset.sum_congr rfl fun k _ => ?_
  have hi : idx_main_v143 (ix1 a) k = ix2 a k := funext fun b => by match b with | ⟨0, _⟩ => rfl | ⟨1, _⟩ => rfl
  rw [hi, val_main_v142_apply]
  unfold val_main_v132 val_main_v141
  generalize val_main_v123 (F := Ideal) x0 x1 x2 x3 x4 x5 x6 x7 x8 x9 x10 x11 x12 = z
  have hK0 := Cert.GatherRows.gather2_apply (N := 100000) (E := 1007616) (C := 64) (w := 32) (by decide) gather_S100000x64_S1007616x1_S1007616x64_1_0_n_n_0_1_164.wf z (padIdx (val_main_v125 (F := Ideal) x13)) (⟨a.val, ha⟩ : Fin 1007616) k
  have hK1 := Cert.GatherRows.gather2_apply (N := 100000) (E := 1007616) (C := 64) (w := 32) (by decide) gather_S100000x64_S1007616x1_S1007616x64_1_0_n_n_0_1_164.wf z (padIdx (val_main_v134 (F := Ideal) x13)) (⟨a.val, ha⟩ : Fin 1007616) k
  have hR0 := Cert.GatherRows.gather2_apply (N := 100000) (E := 1000000) (C := 64) (w := 32) (by decide) Cert.ReferenceIdeal.gather_S100000x64_S1000000x1_S1000000x64_1_0_n_n_0_1_164.wf z (val_main_v131 (F := Ideal) x13) a k
  have hR1 := Cert.GatherRows.gather2_apply (N := 100000) (E := 1000000) (C := 64) (w := 32) (by decide) Cert.ReferenceIdeal.gather_S100000x64_S1000000x1_S1000000x64_1_0_n_n_0_1_164.wf z (val_main_v140 (F := Ideal) x13) a k
  have e0 := rowOf_congr (N := 100000) (by decide) (padIdx (val_main_v125 (F := Ideal) x13)) (val_main_v131 (F := Ideal) x13) (⟨a.val, ha⟩ : Fin 1007616) a
    ((padIdx_apply _ a ha).trans (refIdx0_apply x13 a).symm)
  have e1 := rowOf_congr (N := 100000) (by decide) (padIdx (val_main_v134 (F := Ideal) x13)) (val_main_v140 (F := Ideal) x13) (⟨a.val, ha⟩ : Fin 1007616) a
    ((padIdx_apply _ a ha).trans (refIdx1_apply x13 a).symm)
  exact (congrArg₂ (@HMul.hMul EReal EReal EReal _) (hK0.trans (congrArg (fun r => z (ix2 r k)) e0)) (hK1.trans (congrArg (fun r => z (ix2 r k)) e1))).trans
    (congrArg₂ (@HMul.hMul EReal EReal EReal _) hR0 hR1).symm

end Cert.Tail

end
-- ==== Proof.lean ====
/-
  A five-layer graph convolution network's link decoder, kernel against reference, over the extended reals.

  Both programs normalise the edge weights by the weighted degrees of the edges' endpoints (self loops added), run
  five layers — transform the node features by a weight matrix, gather the transformed rows along the edges, weight
  them, sum them into the edges' targets, add a bias, and (but for the last layer) cut negative entries to zero — and
  score each labelled pair of nodes by the inner product of the two nodes' embeddings.

  The reference transforms the features by `dot_general`. The kernel does it in a kernel region that walks the
  100000 rows in ten blocks of 10000, rounding the operands to bf16 before the matrix unit multiplies them into a
  zero accumulator; at the extended reals the rounding is the identity and each block is the same rows of the whole
  product, so the region's output is the reference's `dot_general` (`Lin0` … `Lin4`). Every other operation of
  the layers is the same host operation in both programs (`StretchA`, `Stretch`), so the node embeddings agree
  (`Chain`). For the scores the kernel pads the two label lists with zeros to a multiple of 8192, gathers, takes the
  row-by-row inner products in a last region of 123 blocks (`Dot5`), and keeps the first 1000000; the reference
  gathers, multiplies and sums each row from zero. Position by position these are the same sum (`Tail`).
  No step uses that the inputs are finite: the two sides are the same operations on the same extended reals.

  The `preserves` claim, as Defs.lean states it for this kernel, is `True` (it lists no rewritten operation). The
  three frames are the generated ones; the reference's is its generated run with the result dropped.
-/
import proofs.«153558_j60687887892626_1_alg».proof.Defs
import proofs.«153558_j60687887892626_1_alg».proof.Proof.Gen.Kernel
import proofs.«153558_j60687887892626_1_alg».proof.Proof.Gen.Kernel.Frame
import proofs.«153558_j60687887892626_1_alg».proof.Proof.Gen.KernelIdeal
import proofs.«153558_j60687887892626_1_alg».proof.Proof.Gen.KernelIdeal.Frame
import proofs.«153558_j60687887892626_1_alg».proof.Proof.Gen.ReferenceIdeal
import proofs.«153558_j60687887892626_1_alg».proof.Proof.Gen.ReferenceIdeal.Run
import proofs.«153558_j60687887892626_1_alg».proof.Proof.Gen.ReferenceIdeal.Read
import proofs.«153558_j60687887892626_1_alg».proof.Proof.Gen.Pre_finite_inputs
import proofs.«153558_j60687887892626_1_alg».proof.Proof.KernelRun
import proofs.«153558_j60687887892626_1_alg».proof.Proof.Chain
import proofs.«153558_j60687887892626_1_alg».proof.Proof.Tail
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel :=
  fun m ρ _ => Cert.Kernel.Gen.frame m ρ

/-- The idealized kernel runs and leaves its arguments as launched. -/
theorem frame_ki : Cert.frame_KernelIdeal :=
  fun m ρ _ => Cert.KernelIdeal.Gen.frame m ρ

/-- The idealized reference runs and leaves its arguments as launched: its run, the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories that agree on the arguments both idealized programs end with the same scores: the reference's
    result as a function of the arguments, which is what the kernel's fold through its segments leaves too. -/
theorem algebraic : Cert.algebraic_KernelIdeal_ReferenceIdeal := by
  intro m ρ m' ρ' _ hagree
  refine ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans ((Cert.KernelIdeal.Chain.W25_main_v145 m ρ c).trans (Cert.Tail.tail_eq _ _ _ _ _ _ _ _ _ _ _ _ _ _)), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v143_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
